-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x1x50 : Shape := ⟨3, ![4096, 1, 50]⟩
abbrev S100000x64 : Shape := ⟨2, ![100000, 64]⟩
abbrev S384x256 : Shape := ⟨2, ![384, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg9 : FVec F S256x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg9
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg10
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : IVec S4096x1 32) (main_arg1 : IVec S4096x1 32) (main_arg2 : IVec S4096x1x50 32) (main_arg3 : IVec S4096x1x50 32) (main_arg4 : IVec S4096x1x50 1) (main_arg5 : FVec F S100000x64 .f32) (main_arg6 : FVec F S100000x64 .f32) (main_arg7 : FVec F S384x256 .f32) (main_arg8 : FVec F S256 .f32) (main_arg9 : FVec F S256x1 .f32) (main_arg10 : FVec F S1 .f32) : IVec S_ 1 :=
  let main_v0 : FVec F S100000x64 .f32 := Host.absf main_arg5
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg6
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S384x256 .f32 := Host.absf main_arg7
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg8
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg9 main_arg10 main_v13 main_v16
-- ==== Kernel.lean ====
abbrev S4096x1 : Shape := ⟨2, ![4096, 1]⟩
abbrev S4096x1x50 : Shape := ⟨3, ![4096, 1, 50]⟩
abbrev S100000x64 : Shape := ⟨2, ![100000, 64]⟩
abbrev S384x256 : Shape := ⟨2, ![384, 256]⟩
abbrev S256 : Shape := ⟨1, ![256]⟩
abbrev S256x1 : Shape := ⟨2, ![256, 1]⟩
abbrev S1 : Shape := ⟨1, ![1]⟩
abbrev S4096 : Shape := ⟨1, ![4096]⟩
abbrev S_ : Shape := ⟨0, ![]⟩
abbrev S4096x64 : Shape := ⟨2, ![4096, 64]⟩
abbrev S4096x128 : Shape := ⟨2, ![4096, 128]⟩
abbrev S4096x50 : Shape := ⟨2, ![4096, 50]⟩
abbrev S4096x50x1 : Shape := ⟨3, ![4096, 50, 1]⟩
abbrev S4096x50x64 : Shape := ⟨3, ![4096, 50, 64]⟩
abbrev S4096x50x128 : Shape := ⟨3, ![4096, 50, 128]⟩
abbrev S4096x56x128 : Shape := ⟨3, ![4096, 56, 128]⟩
abbrev S4096x56 : Shape := ⟨2, ![4096, 56]⟩
abbrev S128x256 : Shape := ⟨2, ![128, 256]⟩
abbrev S256x256 : Shape := ⟨2, ![256, 256]⟩
abbrev S1x256 : Shape := ⟨2, ![1, 256]⟩
abbrev S1x1 : Shape := ⟨2, ![1, 1]⟩
abbrev S64x128 : Shape := ⟨2, ![64, 128]⟩
abbrev S64x56x128 : Shape := ⟨3, ![64, 56, 128]⟩
abbrev S64x56 : Shape := ⟨2, ![64, 56]⟩
abbrev S64x256 : Shape := ⟨2, ![64, 256]⟩
abbrev S64x1x128 : Shape := ⟨3, ![64, 1, 128]⟩
abbrev S64x56x256 : Shape := ⟨3, ![64, 56, 256]⟩
abbrev S3584x256 : Shape := ⟨2, ![3584, 256]⟩
abbrev S64x1x256 : Shape := ⟨3, ![64, 1, 256]⟩
abbrev S1x1x256 : Shape := ⟨3, ![1, 1, 256]⟩
abbrev S3584x1 : Shape := ⟨2, ![3584, 1]⟩
abbrev S64x56x1 : Shape := ⟨3, ![64, 56, 1]⟩
abbrev S4096x1x128 : Shape := ⟨3, ![4096, 1, 128]⟩

abbrev nBuf : Space → Nat
  | .hbm => 72
  | .vmem => 13
  | .smem => 0
  | _ => 0

abbrev bufTy : (tb : Table) → Fin (tcTables nBuf tb) → BufTy
  | .hbm, ⟨0, _⟩ => ⟨S4096x1, .i32⟩
  | .hbm, ⟨1, _⟩ => ⟨S4096x1, .i32⟩
  | .hbm, ⟨2, _⟩ => ⟨S4096x1x50, .i32⟩
  | .hbm, ⟨3, _⟩ => ⟨S4096x1x50, .i32⟩
  | .hbm, ⟨4, _⟩ => ⟨S4096x1x50, .i1⟩
  | .hbm, ⟨5, _⟩ => ⟨S100000x64, .f32⟩
  | .hbm, ⟨6, _⟩ => ⟨S100000x64, .f32⟩
  | .hbm, ⟨7, _⟩ => ⟨S384x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x64, .f32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x64, .f32⟩
  | .hbm, ⟨31, _⟩ => ⟨S4096x128, .f32⟩
  | .hbm, ⟨32, _⟩ => ⟨S4096x50, .i32⟩
  | .hbm, ⟨33, _⟩ => ⟨S_, .i32⟩
  | .hbm, ⟨34, _⟩ => ⟨S4096x50, .i32⟩
  | .hbm, ⟨35, _⟩ => ⟨S4096x50, .i1⟩
  | .hbm, ⟨36, _⟩ => ⟨S_, .i32⟩
  | .hbm, ⟨37, _⟩ => ⟨S4096x50, .i32⟩
  | .hbm, ⟨38, _⟩ => ⟨S4096x50, .i32⟩
  | .hbm, ⟨39, _⟩ => ⟨S4096x50, .i32⟩
  | .hbm, ⟨40, _⟩ => ⟨S4096x50x1, .i32⟩
  | .hbm, ⟨41, _⟩ => ⟨S4096x50x64, .f32⟩
  | .hbm, ⟨42, _⟩ => ⟨S4096x50, .i32⟩
  | .hbm, ⟨43, _⟩ => ⟨S_, .i32⟩
  | .hbm, ⟨44, _⟩ => ⟨S4096x50, .i32⟩
  | .hbm, ⟨45, _⟩ => ⟨S4096x50, .i1⟩
  | .hbm, ⟨46, _⟩ => ⟨S_, .i32⟩
  | .hbm, ⟨47, _⟩ => ⟨S4096x50, .i32⟩
  | .hbm, ⟨48, _⟩ => ⟨S4096x50, .i32⟩
  | .hbm, ⟨49, _⟩ => ⟨S4096x50, .i32⟩
  | .hbm, ⟨50, _⟩ => ⟨S4096x50x1, .i32⟩
  | .hbm, ⟨51, _⟩ => ⟨S4096x50x64, .f32⟩
  | .hbm, ⟨52, _⟩ => ⟨S4096x50x128, .f32⟩
  | .hbm, ⟨53, _⟩ => ⟨S4096x50, .i1⟩
  | .hbm, ⟨54, _⟩ => ⟨S4096x50, .f32⟩
  | .hbm, ⟨55, _⟩ => ⟨S_, .i32⟩
  | .hbm, ⟨56, _⟩ => ⟨S_, .f32⟩
  | .hbm, ⟨57, _⟩ => ⟨S4096x56x128, .f32⟩
  | .hbm, ⟨58, _⟩ => ⟨S_, .i32⟩
  | .hbm, ⟨59, _⟩ => ⟨S_, .f32⟩
  | .hbm, ⟨60, _⟩ => ⟨S4096x56, .f32⟩
  | .hbm, ⟨61, _⟩ => ⟨S128x256, .f32⟩
  | .hbm, ⟨62, _⟩ => ⟨S128x256, .f32⟩
  | .hbm, ⟨63, _⟩ => ⟨S128x256, .f32⟩
  | .hbm, ⟨64, _⟩ => ⟨S128x256, .bf16⟩
  | .hbm, ⟨65, _⟩ => ⟨S256x256, .f32⟩
  | .hbm, ⟨66, _⟩ => ⟨S256x256, .bf16⟩
  | .hbm, ⟨67, _⟩ => ⟨S256x1, .bf16⟩
  | .hbm, ⟨68, _⟩ => ⟨S1x256, .f32⟩
  | .hbm, ⟨69, _⟩ => ⟨S1x1, .f32⟩
  | .hbm, ⟨70, _⟩ => ⟨S4096x128, .f32⟩
  | .hbm, ⟨71, _⟩ => ⟨S4096x1x128, .f32⟩
  | .local _ .vmem, ⟨0, _⟩ => ⟨S64x128, .f32⟩
  | .local _ .vmem, ⟨1, _⟩ => ⟨S64x128, .f32⟩
  | .local _ .vmem, ⟨2, _⟩ => ⟨S64x56x128, .f32⟩
  | .local _ .vmem, ⟨3, _⟩ => ⟨S64x56x128, .f32⟩
  | .local _ .vmem, ⟨4, _⟩ => ⟨S64x56, .f32⟩
  | .local _ .vmem, ⟨5, _⟩ => ⟨S64x56, .f32⟩
  | .local _ .vmem, ⟨6, _⟩ => ⟨S128x256, .bf16⟩
  | .local _ .vmem, ⟨7, _⟩ => ⟨S256x256, .bf16⟩
  | .local _ .vmem, ⟨8, _⟩ => ⟨S256x1, .bf16⟩
  | .local _ .vmem, ⟨9, _⟩ => ⟨S1x256, .f32⟩
  | .local _ .vmem, ⟨10, _⟩ => ⟨S1x1, .f32⟩
  | .local _ .vmem, ⟨11, _⟩ => ⟨S64x128, .f32⟩
  | .local _ .vmem, ⟨12, _⟩ => ⟨S64x128, .f32⟩
  | _, _ => ⟨S4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_call0_v0 : Ref sig .tc := ⟨.hbm, 56, rfl⟩
abbrev main_v36 : Ref sig .tc := ⟨.hbm, 57, rfl⟩
abbrev main_c_8 : Ref sig .tc := ⟨.hbm, 58, rfl⟩
abbrev main_call1_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x56x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x64_S4096x64_S4096x128_d1 : Shape.Concatenates [S4096x64, S4096x64] S4096x128 1
  shapeCasts_S4096x1x50_S4096x50 : S4096x1x50.ShapeCasts S4096x50
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  concatenates_S4096x50x64_S4096x50x64_S4096x50x128_d2 : Shape.Concatenates [S4096x50x64, S4096x50x64] S4096x50x128 2
  pads_S4096x50x128_S4096x56x128_000_060_000 : S4096x50x128.Pads (![0, 0, 0] : Fin 3 → Nat) ![0, 6, 0] ![0, 0, 0] S4096x56x128
  h_S_ : 0 < S_.numel
  pads_S4096x50_S4096x56_000_060 : S4096x50.Pads (![0, 0] : Fin 2 → Nat) ![0, 6] ![0, 0] S4096x56
  slices_S384x256_S128x256_0_0 : S384x256.Slices ![0, 0] S128x256
  slices_S384x256_S128x256_128_0 : S384x256.Slices ![128, 0] S128x256
  slices_S384x256_S128x256_256_0 : S384x256.Slices ![256, 0] S128x256
  bitsLt_bf16_f32 : FTy.bits .bf16 < FTy.bits .f32
  concatenates_S128x256_S128x256_S256x256_d0 : Shape.Concatenates [S128x256, S128x256] S256x256 0
  shapeCasts_S256_S1x256 : S256.ShapeCasts S1x256
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x56x128_S64x56x128_0_0_0 : ∀ a, (![0, 0, 0] : Fin 3 → Nat) a + S64x56x128.size a ≤ S64x56x128.size a
  h_S64x56x128 : 0 < S64x56x128.numel
  shapeCasts_S64x56x128_S64x56x128 : S64x56x128.ShapeCasts S64x56x128
  inb_S64x56_S64x56_0_0 : ∀ a, (![0, 0] : Fin 2 → Nat) a + S64x56.size a ≤ S64x56.size a
  h_S64x56 : 0 < S64x56.numel
  shapeCasts_S64x56_S64x56 : S64x56.ShapeCasts S64x56
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S64x128_S64x1x128 : S64x128.ShapeCasts S64x1x128
  broadcasts_S64x1x128_S64x56x128 : S64x1x128.Broadcasts S64x56x128
  concatenates_S64x56x128_S64x56x128_S64x56x256_d2 : Shape.Concatenates [S64x56x128, S64x56x128] S64x56x256 2
  shapeCasts_S64x56x256_S3584x256 : S64x56x256.ShapeCasts S3584x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S3584x256_S64x56x256 : S3584x256.ShapeCasts S64x56x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S64x256_S64x1x256 : S64x256.ShapeCasts S64x1x256
  broadcasts_S64x1x256_S64x56x256 : S64x1x256.Broadcasts S64x56x256
  shapeCasts_S1x256_S1x1x256 : S1x256.ShapeCasts S1x1x256
  broadcasts_S1x1x256_S64x56x256 : S1x1x256.Broadcasts S64x56x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3584x1 : S1x1.Broadcasts S3584x1
  shapeCasts_S3584x1_S64x56x1 : S3584x1.ShapeCasts S64x56x1
  shapeCasts_S64x56_S64x56x1 : S64x56.ShapeCasts S64x56x1
  broadcasts_S64x56x1_S64x56x128 : S64x56x1.Broadcasts S64x56x128
  reduces_S64x56x128_S64x128 : S64x56x128.Reduces [1] S64x128
  shapeCasts_S4096x128_S4096x1x128 : S4096x128.ShapeCasts S4096x1x128
  gather_S100000x64_S4096x1_S4096x64_1_0_n_n_0_1_164_wf : GatherDims.WF S100000x64 S4096x1 S4096x64 [1] [0] [] [0] [] 1 ![1, 64]
  gather_S100000x64_S4096x50x1_S4096x50x64_2_0_n_n_0_2_164_wf : GatherDims.WF S100000x64 S4096x50x1 S4096x50x64 [2] [0] [] [0] [] 2 ![1, 64]
  dot_S64x128_S128x256_S64x256_1_0_0_1_n_n_wf : DotDims.WF S64x128 S128x256 S64x256 [1] [0] [0] [1] [] []
  dot_S3584x256_S256x256_S3584x256_1_0_0_1_n_n_wf : DotDims.WF S3584x256 S256x256 S3584x256 [1] [0] [0] [1] [] []
  dot_S3584x256_S256x1_S3584x1_1_0_0_1_n_n_wf : DotDims.WF S3584x256 S256x1 S3584x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x56x128.size a ≤ S4096x56x128.size a
  hwx0_1 : ∀ i : grid0.Coords, EltTy.bits .f32 = 32 ∨ (Rect.block (s := S4096x56x128) S64x56x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x56.size a ≤ S4096x56.size a
  hwx0_2 : ∀ i : grid0.Coords, EltTy.bits .f32 = 32 ∨ (Rect.block (s := S4096x56) S64x56.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .bf16 = 32 ∨ (Rect.block (s := S256x1) S256x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S4096x128.size a
  hwx0_8 : ∀ i : grid0.Coords, EltTy.bits .f32 = 32 ∨ (Rect.block (s := S4096x128) S64x128.size (cc0_transform_8 i) (hinb0_8 i)).WholeWords (EltTy.packing .f32)

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S100000x64_S4096x50x1_S4096x50x64_2_0_n_n_0_2_164 : GatherDims S100000x64 S4096x50x1 S4096x50x64 where
  offsetDims := [2]
  collapsedSliceDims := [0]
  operandBatchingDims := []
  startIndicesBatchingDims := []
  startIndexMap := [0]
  indexVectorDim := 2
  sliceSizes := ![1, 64]
  wf := gather_S100000x64_S4096x50x1_S4096x50x64_2_0_n_n_0_2_164_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S3584x256_S256x256_S3584x256_1_0_0_1_n_n : DotDims S3584x256 S256x256 S3584x256 where
  lhsContracting := [1]
  rhsContracting := [0]
  lhsNonContracting := [0]
  rhsNonContracting := [1]
  lhsBatch := []
  rhsBatch := []
  wf := dot_S3584x256_S256x256_S3584x256_1_0_0_1_n_n_wf
def dot_S3584x256_S256x1_S3584x1_1_0_0_1_n_n : DotDims S3584x256 S256x1 S3584x1 where
  lhsContracting := [1]
  rhsContracting := [0]
  lhsNonContracting := [0]
  rhsNonContracting := [1]
  lhsBatch := []
  rhsBatch := []
  wf := dot_S3584x256_S256x1_S3584x1_1_0_0_1_n_n_wf

abbrev win0_0 : Pipeline.Window sig grid0 :=
  Pipeline.Window.ofSpec (Memref.whole main_v16) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S64x56x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S64x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1 : Shape := ⟨2, ![4096, 1]⟩
abbrev S4096x1x50 : Shape := ⟨3, ![4096, 1, 50]⟩
abbrev S100000x64 : Shape := ⟨2, ![100000, 64]⟩
abbrev S384x256 : Shape := ⟨2, ![384, 256]⟩
abbrev S256 : Shape := ⟨1, ![256]⟩
abbrev S256x1 : Shape := ⟨2, ![256, 1]⟩
abbrev S1 : Shape := ⟨1, ![1]⟩
abbrev S_ : Shape := ⟨0, ![]⟩
abbrev S4096x1x1 : Shape := ⟨3, ![4096, 1, 1]⟩
abbrev S4096x1x64 : Shape := ⟨3, ![4096, 1, 64]⟩
abbrev S4096x1x128 : Shape := ⟨3, ![4096, 1, 128]⟩
abbrev S4096x1x50x1 : Shape := ⟨4, ![4096, 1, 50, 1]⟩
abbrev S4096x1x50x64 : Shape := ⟨4, ![4096, 1, 50, 64]⟩
abbrev S4096x1x50x128 : Shape := ⟨4, ![4096, 1, 50, 128]⟩
abbrev S4096x1x1x128 : Shape := ⟨4, ![4096, 1, 1, 128]⟩
abbrev S4096x1x50x384 : Shape := ⟨4, ![4096, 1, 50, 384]⟩
abbrev S4096x1x50x256 : Shape := ⟨4, ![4096, 1, 50, 256]⟩
abbrev S1x1x1x256 : Shape := ⟨4, ![1, 1, 1, 256]⟩
abbrev S1x1x1x1 : Shape := ⟨4, ![1, 1, 1, 1]⟩
abbrev S4096x1x1x50 : Shape := ⟨4, ![4096, 1, 1, 50]⟩

abbrev nBuf : Space → Nat
  | .hbm => 70
  | .vmem => 0
  | .smem => 0
  | _ => 0

abbrev bufTy : (tb : Table) → Fin (tcTables nBuf tb) → BufTy
  | .hbm, ⟨0, _⟩ => ⟨S4096x1, .i32⟩
  | .hbm, ⟨1, _⟩ => ⟨S4096x1, .i32⟩
  | .hbm, ⟨2, _⟩ => ⟨S4096x1x50, .i32⟩
  | .hbm, ⟨3, _⟩ => ⟨S4096x1x50, .i32⟩
  | .hbm, ⟨4, _⟩ => ⟨S4096x1x50, .i1⟩
  | .hbm, ⟨5, _⟩ => ⟨S100000x64, .f32⟩
  | .hbm, ⟨6, _⟩ => ⟨S100000x64, .f32⟩
  | .hbm, ⟨7, _⟩ => ⟨S384x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S_, .i32⟩
  | .hbm, ⟨15, _⟩ => ⟨S4096x1, .i32⟩
  | .hbm, ⟨16, _⟩ => ⟨S4096x1, .i32⟩
  | .hbm, ⟨17, _⟩ => ⟨S4096x1, .i32⟩
  | .hbm, ⟨18, _⟩ => ⟨S4096x1x1, .i32⟩
  | .hbm, ⟨19, _⟩ => ⟨S4096x1x64, .f32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S4096x1x1, .i32⟩
  | .hbm, ⟨28, _⟩ => ⟨S4096x1x64, .f32⟩
  | .hbm, ⟨29, _⟩ => ⟨S4096x1x128, .f32⟩
  | .hbm, ⟨30, _⟩ => ⟨S_, .i32⟩
  | .hbm, ⟨31, _⟩ => ⟨S4096x1x50, .i32⟩
  | .hbm, ⟨32, _⟩ => ⟨S4096x1x50, .i1⟩
  | .hbm, ⟨33, _⟩ => ⟨S_, .i32⟩
  | .hbm, ⟨34, _⟩ => ⟨S4096x1x50, .i32⟩
  | .hbm, ⟨35, _⟩ => ⟨S4096x1x50, .i32⟩
  | .hbm, ⟨36, _⟩ => ⟨S4096x1x50, .i32⟩
  | .hbm, ⟨37, _⟩ => ⟨S4096x1x50x1, .i32⟩
  | .hbm, ⟨38, _⟩ => ⟨S4096x1x50x64, .f32⟩
  | .hbm, ⟨39, _⟩ => ⟨S_, .i32⟩
  | .hbm, ⟨40, _⟩ => ⟨S4096x1x50, .i32⟩
  | .hbm, ⟨41, _⟩ => ⟨S4096x1x50, .i1⟩
  | .hbm, ⟨42, _⟩ => ⟨S_, .i32⟩
  | .hbm, ⟨43, _⟩ => ⟨S4096x1x50, .i32⟩
  | .hbm, ⟨44, _⟩ => ⟨S4096x1x50, .i32⟩
  | .hbm, ⟨45, _⟩ => ⟨S4096x1x50, .i32⟩
  | .hbm, ⟨46, _⟩ => ⟨S4096x1x50x1, .i32⟩
  | .hbm, ⟨47, _⟩ => ⟨S4096x1x50x64, .f32⟩
  | .hbm, ⟨48, _⟩ => ⟨S4096x1x50x128, .f32⟩
  | .hbm, ⟨49, _⟩ => ⟨S4096x1x1x128, .f32⟩
  | .hbm, ⟨50, _⟩ => ⟨S4096x1x50x128, .f32⟩
  | .hbm, ⟨51, _⟩ => ⟨S4096x1x50x128, .f32⟩
  | .hbm, ⟨52, _⟩ => ⟨S4096x1x50x384, .f32⟩
  | .hbm, ⟨53, _⟩ => ⟨S4096x1x50x256, .f32⟩
  | .hbm, ⟨54, _⟩ => ⟨S1x1x1x256, .f32⟩
  | .hbm, ⟨55, _⟩ => ⟨S4096x1x50x256, .f32⟩
  | .hbm, ⟨56, _⟩ => ⟨S4096x1x50x256, .f32⟩
  | .hbm, ⟨57, _⟩ => ⟨S_, .f32⟩
  | .hbm, ⟨58, _⟩ => ⟨S4096x1x50x256, .f32⟩
  | .hbm, ⟨59, _⟩ => ⟨S4096x1x50x256, .f32⟩
  | .hbm, ⟨60, _⟩ => ⟨S4096x1x50x1, .f32⟩
  | .hbm, ⟨61, _⟩ => ⟨S1x1x1x1, .f32⟩
  | .hbm, ⟨62, _⟩ => ⟨S4096x1x50x1, .f32⟩
  | .hbm, ⟨63, _⟩ => ⟨S4096x1x50x1, .f32⟩
  | .hbm, ⟨64, _⟩ => ⟨S4096x1x1x50, .f32⟩
  | .hbm, ⟨65, _⟩ => ⟨S4096x1x50, .f32⟩
  | .hbm, ⟨66, _⟩ => ⟨S4096x1x1x50, .f32⟩
  | .hbm, ⟨67, _⟩ => ⟨S4096x1x1x50, .f32⟩
  | .hbm, ⟨68, _⟩ => ⟨S4096x1x1x128, .f32⟩
  | .hbm, ⟨69, _⟩ => ⟨S4096x1x128, .f32⟩
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  concatenates_S4096x1x64_S4096x1x64_S4096x1x128_d2 : Shape.Concatenates [S4096x1x64, S4096x1x64] S4096x1x128 2
  bcast_S_S4096x1x50 : S_.BroadcastsInDim S4096x1x50 (![] : Fin 0 → Fin S4096x1x50.rank)
  bcast_S4096x1x50_S4096x1x50x1_0_1_2 : S4096x1x50.BroadcastsInDim S4096x1x50x1 (![0, 1, 2] : Fin 3 → Fin S4096x1x50x1.rank)
  concatenates_S4096x1x50x64_S4096x1x50x64_S4096x1x50x128_d3 : Shape.Concatenates [S4096x1x50x64, S4096x1x50x64] S4096x1x50x128 3
  bcast_S4096x1x128_S4096x1x1x128_0_1_3 : S4096x1x128.BroadcastsInDim S4096x1x1x128 (![0, 1, 3] : Fin 3 → Fin S4096x1x1x128.rank)
  bcast_S4096x1x1x128_S4096x1x50x128_0_1_2_3 : S4096x1x1x128.BroadcastsInDim S4096x1x50x128 (![0, 1, 2, 3] : Fin 4 → Fin S4096x1x50x128.rank)
  concatenates_S4096x1x50x128_S4096x1x50x128_S4096x1x50x128_S4096x1x50x384_d3 : Shape.Concatenates [S4096x1x50x128, S4096x1x50x128, S4096x1x50x128] S4096x1x50x384 3
  bcast_S256_S1x1x1x256_3 : S256.BroadcastsInDim S1x1x1x256 (![3] : Fin 1 → Fin S1x1x1x256.rank)
  bcast_S1x1x1x256_S4096x1x50x256_0_1_2_3 : S1x1x1x256.BroadcastsInDim S4096x1x50x256 (![0, 1, 2, 3] : Fin 4 → Fin S4096x1x50x256.rank)
  bcast_S_S4096x1x50x256 : S_.BroadcastsInDim S4096x1x50x256 (![] : Fin 0 → Fin S4096x1x50x256.rank)
  bcast_S1_S1x1x1x1_3 : S1.BroadcastsInDim S1x1x1x1 (![3] : Fin 1 → Fin S1x1x1x1.rank)
  bcast_S1x1x1x1_S4096x1x50x1_0_1_2_3 : S1x1x1x1.BroadcastsInDim S4096x1x50x1 (![0, 1, 2, 3] : Fin 4 → Fin S4096x1x50x1.rank)
  transposes_S4096x1x50x1_S4096x1x1x50_0_1_3_2 : S4096x1x50x1.Transposes [0, 1, 3, 2] S4096x1x1x50
  bcast_S4096x1x50_S4096x1x1x50_0_2_3 : S4096x1x50.BroadcastsInDim S4096x1x1x50 (![0, 2, 3] : Fin 3 → Fin S4096x1x1x50.rank)
  shapeCasts_S4096x1x1x128_S4096x1x128 : S4096x1x1x128.ShapeCasts S4096x1x128
  gather_S100000x64_S4096x1x1_S4096x1x64_2_0_n_n_0_2_164_wf : GatherDims.WF S100000x64 S4096x1x1 S4096x1x64 [2] [0] [] [0] [] 2 ![1, 64]
  gather_S100000x64_S4096x1x50x1_S4096x1x50x64_3_0_n_n_0_3_164_wf : GatherDims.WF S100000x64 S4096x1x50x1 S4096x1x50x64 [3] [0] [] [0] [] 3 ![1, 64]
  dot_S4096x1x50x384_S384x256_S4096x1x50x256_3_0_012_1_n_n_wf : DotDims.WF S4096x1x50x384 S384x256 S4096x1x50x256 [3] [0] [0, 1, 2] [1] [] []
  dot_S4096x1x50x256_S256x1_S4096x1x50x1_3_0_012_1_n_n_wf : DotDims.WF S4096x1x50x256 S256x1 S4096x1x50x1 [3] [0] [0, 1, 2] [1] [] []
  dot_S4096x1x1x50_S4096x1x50x128_S4096x1x1x128_3_2_2_3_01_01_wf : DotDims.WF S4096x1x1x50 S4096x1x50x128 S4096x1x1x128 [3] [2] [2] [3] [0, 1] [0, 1]

variable [Facts₀]

def gather_S100000x64_S4096x1x1_S4096x1x64_2_0_n_n_0_2_164 : GatherDims S100000x64 S4096x1x1 S4096x1x64 where
  offsetDims := [2]
  collapsedSliceDims := [0]
  operandBatchingDims := []
  startIndicesBatchingDims := []
  startIndexMap := [0]
  indexVectorDim := 2
  sliceSizes := ![1, 64]
  wf := gather_S100000x64_S4096x1x1_S4096x1x64_2_0_n_n_0_2_164_wf
def gather_S100000x64_S4096x1x50x1_S4096x1x50x64_3_0_n_n_0_3_164 : GatherDims S100000x64 S4096x1x50x1 S4096x1x50x64 where
  offsetDims := [3]
  collapsedSliceDims := [0]
  operandBatchingDims := []
  startIndicesBatchingDims := []
  startIndexMap := [0]
  indexVectorDim := 3
  sliceSizes := ![1, 64]
  wf := gather_S100000x64_S4096x1x50x1_S4096x1x50x64_3_0_n_n_0_3_164_wf
def dot_S4096x1x50x384_S384x256_S4096x1x50x256_3_0_012_1_n_n : DotDims S4096x1x50x384 S384x256 S4096x1x50x256 where
  lhsContracting := [3]
  rhsContracting := [0]
  lhsNonContracting := [0, 1, 2]
  rhsNonContracting := [1]
  lhsBatch := []
  rhsBatch := []
  wf := dot_S4096x1x50x384_S384x256_S4096x1x50x256_3_0_012_1_n_n_wf
def dot_S4096x1x50x256_S256x1_S4096x1x50x1_3_0_012_1_n_n : DotDims S4096x1x50x256 S256x1 S4096x1x50x1 where
  lhsContracting := [3]
  rhsContracting := [0]
  lhsNonContracting := [0, 1, 2]
  rhsNonContracting := [1]
  lhsBatch := []
  rhsBatch := []
  wf := dot_S4096x1x50x256_S256x1_S4096x1x50x1_3_0_012_1_n_n_wf
def dot_S4096x1x1x50_S4096x1x50x128_S4096x1x1x128_3_2_2_3_01_01 : DotDims S4096x1x1x50 S4096x1x50x128 S4096x1x1x128 where
  lhsContracting := [3]
  rhsContracting := [2]
  lhsNonContracting := [2]
  rhsNonContracting := [3]
  lhsBatch := [0, 1]
  rhsBatch := [0, 1]
  wf := dot_S4096x1x1x50_S4096x1x50x128_S4096x1x1x128_3_2_2_3_01_01_wf

class Facts : Prop extends Facts₀ where

variable [Facts]
-- ==== Proof.Spec.lean ====
/-
  The attention layer both programs compute, as one function of the argument arrays.

  A batch row `b` has a query position pair and fifty key position pairs; a position selects a row of each of two
  embedding tables (100000 rows of 64 features), and the two rows side by side are a 128-feature vector: the query
  `q` and the keys `k l`.  For each key the 384 features `[q, k l, q * k l]` go through a dense layer of 256
  rectified units and a dense layer of one unit, giving a score; the score counts where the mask bit is set, and the
  result is the score-weighted sum of the keys:

    out e = sum over l of (score l * mask l) * k l e.
-/
import Idealize.ShloMosaic.PureOps.Ideal
import Idealize.ShloMosaic.PureOps.Ideal.Laws
import Idealize.ShloMosaic.Lib.ValueIdx

noncomputable section

namespace Cert.Din

open Idealize.ShloMosaic Idealize.ShloMosaic.ValueIdx
open scoped BigOperators

/-- A table position as written: a negative position counts from the end of the 100000 rows. -/
def wrap (x : BitVec 32) : BitVec 32 :=
  Scalar.select (IntOp.cmpi .slt x 0#32) (IntOp.addi x 100000#32) x

/-- The row a position selects: the wrapped position read as a signed integer and clamped into the table. -/
def rowAt (x : BitVec 32) : Fin 100000 := ⟨min (wrap x).toInt.toNat (100000 - 1), by omega⟩

/-- An embedding table: 100000 rows of 64 features. -/
abbrev Tbl := FVec Ideal ⟨2, ![100000, 64]⟩ .f32

/-- Two positions' rows, one from each table, side by side: features 0..63 from the first table, 64..127 from the
    second. -/
def emb (t5 t6 : Tbl) (x5 x6 : BitVec 32) (e : Fin 128) : EReal :=
  if h : e.val < 64 then t5 (ix2 (rowAt x5) ⟨e.val, h⟩) else t6 (ix2 (rowAt x6) ⟨e.val - 64, by omega⟩)

section Row

variable (q : Fin 128 → EReal) (k : Fin 50 → Fin 128 → EReal) (mk : Fin 50 → EReal)
  (W : Fin 384 → Fin 256 → EReal) (bh wo : Fin 256 → EReal) (bo : EReal)

/-- The 384 features of key `l`: the query, the key, their product. -/
def cat (l : Fin 50) (c : Fin 384) : EReal :=
  if h : c.val < 128 then q ⟨c.val, h⟩
  else if h2 : c.val < 256 then k l ⟨c.val - 128, by omega⟩
  else q ⟨c.val - 256, by omega⟩ * k l ⟨c.val - 256, by omega⟩

/-- Hidden unit `u` of key `l`: the rectified dense layer. -/
def hidden (l : Fin 50) (u : Fin 256) : EReal := max ((∑ c, cat q k l c * W c u) + bh u) 0

/-- The score of key `l`. -/
def score (l : Fin 50) : EReal := (∑ u, hidden q k W bh l u * wo u) + bo

/-- Feature `e` of the result: the masked scores' weighted sum of the keys. -/
def attend (e : Fin 128) : EReal := ∑ l, (score q k W bh wo bo l * mk l) * k l e

end Row

/-- The result array as a function of the eleven argument arrays. -/
def G (a0 a1 : IVec ⟨2, ![4096, 1]⟩ 32) (a2 a3 : IVec ⟨3, ![4096, 1, 50]⟩ 32) (a4 : IVec ⟨3, ![4096, 1, 50]⟩ 1)
    (a5 a6 : Tbl) (a7 : FVec Ideal ⟨2, ![384, 256]⟩ .f32) (a8 : FVec Ideal ⟨1, ![256]⟩ .f32)
    (a9 : FVec Ideal ⟨2, ![256, 1]⟩ .f32) (a10 : FVec Ideal ⟨1, ![1]⟩ .f32) :
    FVec Ideal ⟨3, ![4096, 1, 128]⟩ .f32 :=
  fun i =>
    attend (fun e => emb a5 a6 (a0 (ix2 (i 0) 0)) (a1 (ix2 (i 0) 0)) e)
      (fun l e => emb a5 a6 (a2 (ix3 (i 0) 0 l)) (a3 (ix3 (i 0) 0 l)) e)
      (fun l => (((a4 (ix3 (i 0) 0 l)).toNat : ℝ) : EReal))
      (fun c u => a7 (ix2 c u)) (fun u => a8 (ix1 u)) (fun u => a9 (ix2 u 0)) (a10 (ix1 0)) (i 2)

end Cert.Din

end
-- ==== Proof.LibGatherRows.lean ====
/-
  Rows taken from a table at a two- or three-dimensional array of integer positions — read at one element.

  `x[idx]` of a table `x : [N, C]` at positions `idx : [R, L]` (carried as start indices `[R, L, 1]`) is a gather whose
  result `[R, L, C]` has, at `(r, l, k)`, the table's element `k` of the row that position `(r, l)` selects: the position
  read as a signed integer and clamped into `[0, N - 1]`.  The same with one more leading axis: positions `[R, G, L]`
  (start indices `[R, G, L, 1]`), result `[R, G, L, C]`.
-/
import Idealize.ShloMosaic.PureOps.Ideal
import Idealize.ShloMosaic.Lib.ValueIdx

noncomputable section

namespace Cert.LibGatherRows

open Idealize.ShloMosaic Idealize.ShloMosaic.ValueIdx

/-! ## Rows gathered from a table `[N, C]` at start indices `[R, L, 1]` -/

/-- The dimension numbers of `x[idx]` for a table `[N, C]`, start indices `[R, L, 1]` and a result `[R, L, C]`. -/
abbrev rowGather3Dims (N R L C : Nat)
    (wf : GatherDims.WF ⟨2, ![N, C]⟩ ⟨3, ![R, L, 1]⟩ ⟨3, ![R, L, C]⟩ [2] [0] [] [0] [] 2 ![1, C]) :
    GatherDims ⟨2, ![N, C]⟩ ⟨3, ![R, L, 1]⟩ ⟨3, ![R, L, C]⟩ where
  offsetDims := [2]
  collapsedSliceDims := [0]
  operandBatchingDims := []
  startIndicesBatchingDims := []
  startIndexMap := [0]
  indexVectorDim := 2
  sliceSizes := ![1, C]
  wf := wf

/-- The row position `(r, l)` selects: its start index read signed and clamped into `[0, N - 1]`. -/
def rowOf3 (N : Nat) {R L w : Nat} (hN : 0 < N) (idx : IVec ⟨3, ![R, L, 1]⟩ w) (r : Fin R) (l : Fin L) : Fin N :=
  ⟨min (idx (ix3 r l 0)).toInt.toNat (N - 1), by omega⟩

theorem rowGather3_operand0 {N R L C w : Nat} (hN : 0 < N)
    (wf : GatherDims.WF ⟨2, ![N, C]⟩ ⟨3, ![R, L, 1]⟩ ⟨3, ![R, L, C]⟩ [2] [0] [] [0] [] 2 ![1, C])
    (idx : IVec ⟨3, ![R, L, 1]⟩ w) (r : Fin R) (l : Fin L) (k : Fin C) :
    (rowGather3Dims N R L C wf).start (ix3 r l k) idx (0 : Fin 2)
      + (rowGather3Dims N R L C wf).batchCoord (ix3 r l k) (0 : Fin 2)
      + (rowGather3Dims N R L C wf).offCoord (ix3 r l k) (0 : Fin 2) = (rowOf3 N hN idx r l).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather3Dims N R L C wf).startIndexMap from List.mem_singleton.mpr rfl)]
  have hsi : (rowGather3Dims N R L C wf).siIdx (ix3 r l k)
      ⟨List.idxOf (0 : Fin 2) (rowGather3Dims N R L C wf).startIndexMap,
        List.idxOf_lt_length_iff.2 (List.mem_singleton.mpr rfl)⟩ = ix3 r l 0 := by
    funext b; refine Fin.ext ?_
    match b with
    | ⟨0, _⟩ => rfl
    | ⟨1, _⟩ => rfl
    | ⟨2, _⟩ => rfl
  rw [hsi]
  rfl

theorem rowGather3_operand1 {N R L C w : Nat}
    (wf : GatherDims.WF ⟨2, ![N, C]⟩ ⟨3, ![R, L, 1]⟩ ⟨3, ![R, L, C]⟩ [2] [0] [] [0] [] 2 ![1, C])
    (idx : IVec ⟨3, ![R, L, 1]⟩ w) (r : Fin R) (l : Fin L) (k : Fin C) :
    (rowGather3Dims N R L C wf).start (ix3 r l k) idx (1 : Fin 2)
      + (rowGather3Dims N R L C wf).batchCoord (ix3 r l k) (1 : Fin 2)
      + (rowGather3Dims N R L C wf).offCoord (ix3 r l k) (1 : Fin 2) = k.val := by
  rw [GatherDims.batchCoord_eq_zero _ _ _ List.not_mem_nil]
  have hs : (rowGather3Dims N R L C wf).start (ix3 r l k) idx (1 : Fin 2) = 0 := by
    unfold GatherDims.start
    rw [dif_neg (by simp)]
  have hk : (1 : Fin 2) ∈ (rowGather3Dims N R L C wf).sKept :=
    (GatherDims.mem_sKept _ _).mpr ⟨by simp, by simp⟩
  rw [hs]
  unfold GatherDims.offCoord
  rw [dif_pos hk]
  simp only [Nat.add_zero, Nat.zero_add]
  rfl

/-- THE ROW GATHER AT POSITIONS `[R, L]` READ AT `(r, l, k)`: the table's element `k` of the row position `(r, l)`
    selects. -/
theorem rowGather3_apply {α : Type} {N R L C w : Nat} (hN : 0 < N)
    (wf : GatherDims.WF ⟨2, ![N, C]⟩ ⟨3, ![R, L, 1]⟩ ⟨3, ![R, L, C]⟩ [2] [0] [] [0] [] 2 ![1, C])
    (x : (⟨2, ![N, C]⟩ : Shape).Idx → α) (idx : IVec ⟨3, ![R, L, 1]⟩ w) (r : Fin R) (l : Fin L) (k : Fin C) :
    Host.gather (rowGather3Dims N R L C wf) x idx (ix3 r l k) = x (ix2 (rowOf3 N hN idx r l) k) := by
  unfold Host.gather
  congr 1
  funext a
  refine Fin.ext ?_
  show (rowGather3Dims N R L C wf).start (ix3 r l k) idx a + (rowGather3Dims N R L C wf).batchCoord (ix3 r l k) a
    + (rowGather3Dims N R L C wf).offCoord (ix3 r l k) a = _
  match a with
  | ⟨0, _⟩ => exact rowGather3_operand0 hN wf idx r l k
  | ⟨1, _⟩ => exact rowGather3_operand1 wf idx r l k

/-! ## Rows gathered from a table `[N, C]` at start indices `[R, G, L, 1]` -/

/-- The dimension numbers of `x[idx]` for a table `[N, C]`, start indices `[R, G, L, 1]` and a result `[R, G, L, C]`. -/
abbrev rowGather4Dims (N R G L C : Nat)
    (wf : GatherDims.WF ⟨2, ![N, C]⟩ ⟨4, ![R, G, L, 1]⟩ ⟨4, ![R, G, L, C]⟩ [3] [0] [] [0] [] 3 ![1, C]) :
    GatherDims ⟨2, ![N, C]⟩ ⟨4, ![R, G, L, 1]⟩ ⟨4, ![R, G, L, C]⟩ where
  offsetDims := [3]
  collapsedSliceDims := [0]
  operandBatchingDims := []
  startIndicesBatchingDims := []
  startIndexMap := [0]
  indexVectorDim := 3
  sliceSizes := ![1, C]
  wf := wf

/-- The row position `(r, g, l)` selects: its start index read signed and clamped into `[0, N - 1]`. -/
def rowOf4 (N : Nat) {R G L w : Nat} (hN : 0 < N) (idx : IVec ⟨4, ![R, G, L, 1]⟩ w) (r : Fin R) (g : Fin G) (l : Fin L) :
    Fin N :=
  ⟨min (idx (ix4 r g l 0)).toInt.toNat (N - 1), by omega⟩

theorem rowGather4_operand0 {N R G L C w : Nat} (hN : 0 < N)
    (wf : GatherDims.WF ⟨2, ![N, C]⟩ ⟨4, ![R, G, L, 1]⟩ ⟨4, ![R, G, L, C]⟩ [3] [0] [] [0] [] 3 ![1, C])
    (idx : IVec ⟨4, ![R, G, L, 1]⟩ w) (r : Fin R) (g : Fin G) (l : Fin L) (k : Fin C) :
    (rowGather4Dims N R G L C wf).start (ix4 r g l k) idx (0 : Fin 2)
      + (rowGather4Dims N R G L C wf).batchCoord (ix4 r g l k) (0 : Fin 2)
      + (rowGather4Dims N R G L C wf).offCoord (ix4 r g l k) (0 : Fin 2) = (rowOf4 N hN idx r g l).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather4Dims N R G L C wf).startIndexMap from List.mem_singleton.mpr rfl)]
  have hsi : (rowGather4Dims N R G L C wf).siIdx (ix4 r g l k)
      ⟨List.idxOf (0 : Fin 2) (rowGather4Dims N R G L C wf).startIndexMap,
        List.idxOf_lt_length_iff.2 (List.mem_singleton.mpr rfl)⟩ = ix4 r g l 0 := by
    funext b; refine Fin.ext ?_
    match b with
    | ⟨0, _⟩ => rfl
    | ⟨1, _⟩ => rfl
    | ⟨2, _⟩ => rfl
    | ⟨3, _⟩ => rfl
  rw [hsi]
  rfl

theorem rowGather4_operand1 {N R G L C w : Nat}
    (wf : GatherDims.WF ⟨2, ![N, C]⟩ ⟨4, ![R, G, L, 1]⟩ ⟨4, ![R, G, L, C]⟩ [3] [0] [] [0] [] 3 ![1, C])
    (idx : IVec ⟨4, ![R, G, L, 1]⟩ w) (r : Fin R) (g : Fin G) (l : Fin L) (k : Fin C) :
    (rowGather4Dims N R G L C wf).start (ix4 r g l k) idx (1 : Fin 2)
      + (rowGather4Dims N R G L C wf).batchCoord (ix4 r g l k) (1 : Fin 2)
      + (rowGather4Dims N R G L C wf).offCoord (ix4 r g l k) (1 : Fin 2) = k.val := by
  rw [GatherDims.batchCoord_eq_zero _ _ _ List.not_mem_nil]
  have hs : (rowGather4Dims N R G L C wf).start (ix4 r g l k) idx (1 : Fin 2) = 0 := by
    unfold GatherDims.start
    rw [dif_neg (by simp)]
  have hk : (1 : Fin 2) ∈ (rowGather4Dims N R G L C wf).sKept :=
    (GatherDims.mem_sKept _ _).mpr ⟨by simp, by simp⟩
  rw [hs]
  unfold GatherDims.offCoord
  rw [dif_pos hk]
  simp only [Nat.add_zero, Nat.zero_add]
  rfl

/-- THE ROW GATHER AT POSITIONS `[R, G, L]` READ AT `(r, g, l, k)`: the table's element `k` of the row position
    `(r, g, l)` selects. -/
theorem rowGather4_apply {α : Type} {N R G L C w : Nat} (hN : 0 < N)
    (wf : GatherDims.WF ⟨2, ![N, C]⟩ ⟨4, ![R, G, L, 1]⟩ ⟨4, ![R, G, L, C]⟩ [3] [0] [] [0] [] 3 ![1, C])
    (x : (⟨2, ![N, C]⟩ : Shape).Idx → α) (idx : IVec ⟨4, ![R, G, L, 1]⟩ w) (r : Fin R) (g : Fin G) (l : Fin L)
    (k : Fin C) :
    Host.gather (rowGather4Dims N R G L C wf) x idx (ix4 r g l k) = x (ix2 (rowOf4 N hN idx r g l) k) := by
  unfold Host.gather
  congr 1
  funext a
  refine Fin.ext ?_
  show (rowGather4Dims N R G L C wf).start (ix4 r g l k) idx a + (rowGather4Dims N R G L C wf).batchCoord (ix4 r g l k) a
    + (rowGather4Dims N R G L C wf).offCoord (ix4 r g l k) a = _
  match a with
  | ⟨0, _⟩ => exact rowGather4_operand0 hN wf idx r g l k
  | ⟨1, _⟩ => exact rowGather4_operand1 wf idx r g l k

end Cert.LibGatherRows
-- ==== Proof.RefValue.lean ====
/-
  The reference program computes the attention layer `Cert.Din.G`.

  Read one element at a time, outermost operation first: the result's element `(b, 0, e)` is a sum over the fifty keys
  of (score × mask) × key feature; a score is a dense layer of one unit over 256 rectified units of a dense layer over
  the 384 features `[q, k, q * k]`; `q` and the keys are rows of the two embedding tables, side by side, at positions
  wrapped from the end when negative.
-/
import proofs.«166987_j34565896798471_2_alg».proof.Proof.RefRead
import proofs.«166987_j34565896798471_2_alg».proof.Proof.Spec
import proofs.«166987_j34565896798471_2_alg».proof.Proof.LibGatherRows

noncomputable section

namespace Cert.Din.Ref

open Cert.ReferenceIdeal Cert.ReferenceIdeal.Gen Cert.ReferenceIdeal.Read Idealize.ShloMosaic Idealize.ShloMosaic.ValueIdx
open Cert.LibGatherRows
open scoped BigOperators

/-! ## The start-index arrays: each position wrapped from the end when negative -/

theorem start_q5 (x0 : (⟨S4096x1, .i32⟩ : BufTy).Contents (Elt Ideal)) (j : S4096x1x1.Idx) :
    val_main_v5 (F := Ideal) x0 j = Din.wrap (x0 (idx_main_v5 j)) := by
  rw [val_main_v5_apply, val_main_v4_apply, val_main_v1_apply, val_main_v3_apply, val_main_v0_apply, val_main_v2_apply,
    val_main_c_apply, val_main_c_0_apply]
  rfl

theorem start_q6 (x1 : (⟨S4096x1, .i32⟩ : BufTy).Contents (Elt Ideal)) (j : S4096x1x1.Idx) :
    val_main_v12 (F := Ideal) x1 j = Din.wrap (x1 (idx_main_v12 j)) := by
  rw [val_main_v12_apply, val_main_v11_apply, val_main_v8_apply, val_main_v10_apply, val_main_v7_apply, val_main_v9_apply,
    val_main_c_1_apply, val_main_c_2_apply]
  rfl

theorem start_k5 (x2 : (⟨S4096x1x50, .i32⟩ : BufTy).Contents (Elt Ideal)) (j : S4096x1x50x1.Idx) :
    val_main_v20 (F := Ideal) x2 j = Din.wrap (x2 (idx_main_v20 j)) := by
  rw [val_main_v20_apply, val_main_v19_apply, val_main_v16_apply, val_main_v18_apply, val_main_v15_apply,
    val_main_v17_apply, val_main_c_3_apply, val_main_c_4_apply]
  rfl

theorem start_k6 (x3 : (⟨S4096x1x50, .i32⟩ : BufTy).Contents (Elt Ideal)) (j : S4096x1x50x1.Idx) :
    val_main_v27 (F := Ideal) x3 j = Din.wrap (x3 (idx_main_v27 j)) := by
  rw [val_main_v27_apply, val_main_v26_apply, val_main_v23_apply, val_main_v25_apply, val_main_v22_apply,
    val_main_v24_apply, val_main_c_5_apply, val_main_c_6_apply]
  rfl

theorem idx5_ix (b : Fin 4096) (g z : Fin 1) : idx_main_v5 (ix3 b g z) = ix2 b 0 :=
  funext fun a => Fin.ext (by match a with | ⟨0, _⟩ => rfl | ⟨1, _⟩ => rfl)

theorem idx12_ix (b : Fin 4096) (g z : Fin 1) : idx_main_v12 (ix3 b g z) = ix2 b 0 :=
  funext fun a => Fin.ext (by match a with | ⟨0, _⟩ => rfl | ⟨1, _⟩ => rfl)

theorem idx20_ix (b : Fin 4096) (g : Fin 1) (l : Fin 50) (z : Fin 1) : idx_main_v20 (ix4 b g l z) = ix3 b 0 l :=
  funext fun a => Fin.ext (by match a with | ⟨0, _⟩ => rfl | ⟨1, _⟩ => rfl | ⟨2, _⟩ => rfl)

theorem idx27_ix (b : Fin 4096) (g : Fin 1) (l : Fin 50) (z : Fin 1) : idx_main_v27 (ix4 b g l z) = ix3 b 0 l :=
  funext fun a => Fin.ext (by match a with | ⟨0, _⟩ => rfl | ⟨1, _⟩ => rfl | ⟨2, _⟩ => rfl)

/-! ## The four gathers: a table's row at the wrapped, clamped position -/

theorem gather_q5 (x0 : (⟨S4096x1, .i32⟩ : BufTy).Contents (Elt Ideal)) (x5 : (⟨S100000x64, .f32⟩ : BufTy).Contents (Elt Ideal))
    (b : Fin 4096) (g : Fin 1) (k : Fin 64) :
    val_main_v6 (F := Ideal) x0 x5 (ix3 b g k) = x5 (ix2 (Din.rowAt (x0 (ix2 b 0))) k) := by
  unfold val_main_v6
  refine (rowGather3_apply (N := 100000) (R := 4096) (L := 1) (C := 64) (by decide)
    Facts₀.gather_S100000x64_S4096x1x1_S4096x1x64_2_0_n_n_0_2_164_wf x5 (val_main_v5 (F := Ideal) x0) b g k).trans ?_
  congr 2
  refine Fin.ext ?_
  show min (val_main_v5 (F := Ideal) x0 (ix3 b g 0)).toInt.toNat (100000 - 1) = _
  rw [start_q5, idx5_ix]
  rfl

theorem gather_q6 (x1 : (⟨S4096x1, .i32⟩ : BufTy).Contents (Elt Ideal)) (x6 : (⟨S100000x64, .f32⟩ : BufTy).Contents (Elt Ideal))
    (b : Fin 4096) (g : Fin 1) (k : Fin 64) :
    val_main_v13 (F := Ideal) x1 x6 (ix3 b g k) = x6 (ix2 (Din.rowAt (x1 (ix2 b 0))) k) := by
  unfold val_main_v13
  refine (rowGather3_apply (N := 100000) (R := 4096) (L := 1) (C := 64) (by decide)
    Facts₀.gather_S100000x64_S4096x1x1_S4096x1x64_2_0_n_n_0_2_164_wf x6 (val_main_v12 (F := Ideal) x1) b g k).trans ?_
  congr 2
  refine Fin.ext ?_
  show min (val_main_v12 (F := Ideal) x1 (ix3 b g 0)).toInt.toNat (100000 - 1) = _
  rw [start_q6, idx12_ix]
  rfl

theorem gather_k5 (x2 : (⟨S4096x1x50, .i32⟩ : BufTy).Contents (Elt Ideal)) (x5 : (⟨S100000x64, .f32⟩ : BufTy).Contents (Elt Ideal))
    (b : Fin 4096) (g : Fin 1) (l : Fin 50) (k : Fin 64) :
    val_main_v21 (F := Ideal) x2 x5 (ix4 b g l k) = x5 (ix2 (Din.rowAt (x2 (ix3 b 0 l))) k) := by
  unfold val_main_v21
  refine (rowGather4_apply (N := 100000) (R := 4096) (G := 1) (L := 50) (C := 64) (by decide)
    Facts₀.gather_S100000x64_S4096x1x50x1_S4096x1x50x64_3_0_n_n_0_3_164_wf x5 (val_main_v20 (F := Ideal) x2) b g l k).trans ?_
  congr 2
  refine Fin.ext ?_
  show min (val_main_v20 (F := Ideal) x2 (ix4 b g l 0)).toInt.toNat (100000 - 1) = _
  rw [start_k5, idx20_ix]
  rfl

theorem gather_k6 (x3 : (⟨S4096x1x50, .i32⟩ : BufTy).Contents (Elt Ideal)) (x6 : (⟨S100000x64, .f32⟩ : BufTy).Contents (Elt Ideal))
    (b : Fin 4096) (g : Fin 1) (l : Fin 50) (k : Fin 64) :
    val_main_v28 (F := Ideal) x3 x6 (ix4 b g l k) = x6 (ix2 (Din.rowAt (x3 (ix3 b 0 l))) k) := by
  unfold val_main_v28
  refine (rowGather4_apply (N := 100000) (R := 4096) (G := 1) (L := 50) (C := 64) (by decide)
    Facts₀.gather_S100000x64_S4096x1x50x1_S4096x1x50x64_3_0_n_n_0_3_164_wf x6 (val_main_v27 (F := Ideal) x3) b g l k).trans ?_
  congr 2
  refine Fin.ext ?_
  show min (val_main_v27 (F := Ideal) x3 (ix4 b g l 0)).toInt.toNat (100000 - 1) = _
  rw [start_k6, idx27_ix]
  rfl

/-! ## The two embeddings: the two tables' rows side by side -/

theorem emb_q (x0 x1 : (⟨S4096x1, .i32⟩ : BufTy).Contents (Elt Ideal)) (x5 x6 : (⟨S100000x64, .f32⟩ : BufTy).Contents (Elt Ideal))
    (b : Fin 4096) (g : Fin 1) (e : Fin 128) :
    val_main_v14 (F := Ideal) x0 x1 x5 x6 (ix3 b g e) = Din.emb x5 x6 (x0 (ix2 b 0)) (x1 (ix2 b 0)) e := by
  unfold val_main_v14 Din.emb
  split
  · next h =>
    refine (concatenate_pair_apply_left (t := S4096x1x128) (s₁ := S4096x1x64) (s₂ := S4096x1x64) 2 _ _ _ (ix3 b g e) rfl
      (ix3 b g (⟨e.val, h⟩ : Fin 64)) (fun c => by
      match c with
      | ⟨0, _⟩ => rfl
      | ⟨1, _⟩ => rfl
      | ⟨2, _⟩ => rfl)).trans ?_
    exact gather_q5 x0 x5 b g ⟨e.val, h⟩
  · next h =>
    refine (concatenate_pair_apply_right (t := S4096x1x128) (s₁ := S4096x1x64) (s₂ := S4096x1x64) 2 _ _ _ (ix3 b g e) rfl rfl
      (ix3 b g (⟨e.val - 64, by omega⟩ : Fin 64)) (fun c hc => by
      match c with
      | ⟨0, _⟩ => rfl
      | ⟨1, _⟩ => rfl
      | ⟨2, _⟩ => exact absurd rfl hc)
      (by show e.val - 64 + 64 = e.val; omega)).trans ?_
    exact gather_q6 x1 x6 b g ⟨e.val - 64, by omega⟩

theorem emb_k (x2 x3 : (⟨S4096x1x50, .i32⟩ : BufTy).Contents (Elt Ideal)) (x5 x6 : (⟨S100000x64, .f32⟩ : BufTy).Contents (Elt Ideal))
    (b : Fin 4096) (g : Fin 1) (l : Fin 50) (e : Fin 128) :
    val_main_v29 (F := Ideal) x2 x3 x5 x6 (ix4 b g l e) = Din.emb x5 x6 (x2 (ix3 b 0 l)) (x3 (ix3 b 0 l)) e := by
  unfold val_main_v29 Din.emb
  split
  · next h =>
    refine (concatenate_pair_apply_left (t := S4096x1x50x128) (s₁ := S4096x1x50x64) (s₂ := S4096x1x50x64) 3 _ _ _
      (ix4 b g l e) rfl (ix4 b g l (⟨e.val, h⟩ : Fin 64)) (fun c => by
      match c with
      | ⟨0, _⟩ => rfl
      | ⟨1, _⟩ => rfl
      | ⟨2, _⟩ => rfl
      | ⟨3, _⟩ => rfl)).trans ?_
    exact gather_k5 x2 x5 b g l ⟨e.val, h⟩
  · next h =>
    refine (concatenate_pair_apply_right (t := S4096x1x50x128) (s₁ := S4096x1x50x64) (s₂ := S4096x1x50x64) 3 _ _ _
      (ix4 b g l e) rfl rfl (ix4 b g l (⟨e.val - 64, by omega⟩ : Fin 64)) (fun c hc => by
      match c with
      | ⟨0, _⟩ => rfl
      | ⟨1, _⟩ => rfl
      | ⟨2, _⟩ => rfl
      | ⟨3, _⟩ => exact absurd rfl hc)
      (by show e.val - 64 + 64 = e.val; omega)).trans ?_
    exact gather_k6 x3 x6 b g l ⟨e.val - 64, by omega⟩

/-! ## The query, repeated along the keys -/

theorem idx30_31 (b : Fin 4096) (g : Fin 1) (l : Fin 50) (e : Fin 128) :
    idx_main_v30 (idx_main_v31 (ix4 b g l e)) = ix3 b 0 e :=
  funext fun a => Fin.ext (by match a with | ⟨0, _⟩ => rfl | ⟨1, _⟩ => rfl | ⟨2, _⟩ => rfl)

theorem q_bcast (x0 x1 : (⟨S4096x1, .i32⟩ : BufTy).Contents (Elt Ideal)) (x5 x6 : (⟨S100000x64, .f32⟩ : BufTy).Contents (Elt Ideal))
    (b : Fin 4096) (g : Fin 1) (l : Fin 50) (e : Fin 128) :
    val_main_v31 (F := Ideal) x0 x1 x5 x6 (ix4 b g l e) = Din.emb x5 x6 (x0 (ix2 b 0)) (x1 (ix2 b 0)) e := by
  rw [val_main_v31_apply, val_main_v30_apply, idx30_31]
  exact emb_q x0 x1 x5 x6 b 0 e

/-! ## The 384 features of a key: the query, the key, their product -/

/-- Three arrays of 128 features laid end to end, read at feature `c`: the first below 128, the second below 256, the
    third from 256 on. -/
theorem cat3_apply (A B C : (⟨S4096x1x50x128, .f32⟩ : BufTy).Contents (Elt Ideal)) (b : Fin 4096) (g : Fin 1) (l : Fin 50)
    (c : Fin 384) :
    concatenate S4096x1x50x384 3 [⟨S4096x1x50x128, A⟩, ⟨S4096x1x50x128, B⟩, ⟨S4096x1x50x128, C⟩]
        Facts₀.concatenates_S4096x1x50x128_S4096x1x50x128_S4096x1x50x128_S4096x1x50x384_d3 (ix4 b g l c)
      = if h : c.val < 128 then A (ix4 b g l ⟨c.val, h⟩)
        else if h2 : c.val < 256 then B (ix4 b g l ⟨c.val - 128, by omega⟩)
        else C (ix4 b g l ⟨c.val - 256, by omega⟩) := by
  by_cases h : c.val < 128
  · rw [dif_pos h]
    exact concatenate_apply_piece (t := S4096x1x50x384) 3
        [⟨S4096x1x50x128, A⟩, ⟨S4096x1x50x128, B⟩, ⟨S4096x1x50x128, C⟩]
        Facts₀.concatenates_S4096x1x50x128_S4096x1x50x128_S4096x1x50x128_S4096x1x50x384_d3 (ix4 b g l c) 0 (by show 0 < 3; omega)
        S4096x1x50x128 A rfl rfl 0 rfl (ix4 b g l (⟨c.val, by omega⟩ : Fin 128))
        (fun d hd => by
          match d with
          | ⟨0, _⟩ => rfl
          | ⟨1, _⟩ => rfl
          | ⟨2, _⟩ => rfl
          | ⟨3, _⟩ => exact absurd rfl hd)
        (by show 0 + (c.val) = c.val; omega)
  · rw [dif_neg h]
    by_cases h2 : c.val < 256
    · rw [dif_pos h2]
      exact concatenate_apply_piece (t := S4096x1x50x384) 3
        [⟨S4096x1x50x128, A⟩, ⟨S4096x1x50x128, B⟩, ⟨S4096x1x50x128, C⟩]
        Facts₀.concatenates_S4096x1x50x128_S4096x1x50x128_S4096x1x50x128_S4096x1x50x384_d3 (ix4 b g l c) 1 (by show 1 < 3; omega)
        S4096x1x50x128 B rfl rfl 128 rfl (ix4 b g l (⟨c.val - 128, by omega⟩ : Fin 128))
        (fun d hd => by
          match d with
          | ⟨0, _⟩ => rfl
          | ⟨1, _⟩ => rfl
          | ⟨2, _⟩ => rfl
          | ⟨3, _⟩ => exact absurd rfl hd)
        (by show 128 + (c.val - 128) = c.val; omega)
    · rw [dif_neg h2]
      exact concatenate_apply_piece (t := S4096x1x50x384) 3
        [⟨S4096x1x50x128, A⟩, ⟨S4096x1x50x128, B⟩, ⟨S4096x1x50x128, C⟩]
        Facts₀.concatenates_S4096x1x50x128_S4096x1x50x128_S4096x1x50x128_S4096x1x50x384_d3 (ix4 b g l c) 2 (by show 2 < 3; omega)
        S4096x1x50x128 C rfl rfl 256 rfl (ix4 b g l (⟨c.val - 256, by omega⟩ : Fin 128))
        (fun d hd => by
          match d with
          | ⟨0, _⟩ => rfl
          | ⟨1, _⟩ => rfl
          | ⟨2, _⟩ => rfl
          | ⟨3, _⟩ => exact absurd rfl hd)
        (by show 256 + (c.val - 256) = c.val; omega)

theorem cat_at (x0 x1 : (⟨S4096x1, .i32⟩ : BufTy).Contents (Elt Ideal)) (x2 x3 : (⟨S4096x1x50, .i32⟩ : BufTy).Contents (Elt Ideal)) (x5 x6 : (⟨S100000x64, .f32⟩ : BufTy).Contents (Elt Ideal))
    (b : Fin 4096) (l : Fin 50) (c : Fin 384) :
    val_main_v33 (F := Ideal) x0 x1 x2 x3 x5 x6 (ix4 b 0 l c) = Din.cat (fun e => Din.emb x5 x6 (x0 (ix2 b 0)) (x1 (ix2 b 0)) e) (fun l e => Din.emb x5 x6 (x2 (ix3 b 0 l)) (x3 (ix3 b 0 l)) e) l c := by
  unfold val_main_v33 Din.cat
  rw [cat3_apply]
  by_cases h : c.val < 128
  · rw [dif_pos h, dif_pos h]
    exact q_bcast x0 x1 x5 x6 b 0 l ⟨c.val, h⟩
  · rw [dif_neg h, dif_neg h]
    by_cases h2 : c.val < 256
    · rw [dif_pos h2, dif_pos h2]
      exact emb_k x2 x3 x5 x6 b 0 l ⟨c.val - 128, by omega⟩
    · rw [dif_neg h2, dif_neg h2, val_main_v32_apply, q_bcast, emb_k]
      rfl

/-! ## The hidden layer: 256 rectified units over the 384 features -/

theorem lidx34_ix (b : Fin 4096) (g : Fin 1) (l : Fin 50) (u : Fin 256) (c : Fin 384) :
    lidx_main_v34 (ix4 b g l u) c = ix4 b g l c :=
  funext fun a => Fin.ext (by match a with | ⟨0, _⟩ => rfl | ⟨1, _⟩ => rfl | ⟨2, _⟩ => rfl | ⟨3, _⟩ => rfl)

theorem ridx34_ix (b : Fin 4096) (g : Fin 1) (l : Fin 50) (u : Fin 256) (c : Fin 384) :
    ridx_main_v34 (ix4 b g l u) c = ix2 c u :=
  funext fun a => Fin.ext (by match a with | ⟨0, _⟩ => rfl | ⟨1, _⟩ => rfl)

theorem idx35_36 (b : Fin 4096) (g : Fin 1) (l : Fin 50) (u : Fin 256) :
    idx_main_v35 (idx_main_v36 (ix4 b g l u)) = ix1 u :=
  funext fun a => Fin.ext (by match a with | ⟨0, _⟩ => rfl)

theorem hidden_at (x0 x1 : (⟨S4096x1, .i32⟩ : BufTy).Contents (Elt Ideal)) (x2 x3 : (⟨S4096x1x50, .i32⟩ : BufTy).Contents (Elt Ideal)) (x5 x6 : (⟨S100000x64, .f32⟩ : BufTy).Contents (Elt Ideal)) (x7 : (⟨S384x256, .f32⟩ : BufTy).Contents (Elt Ideal)) (x8 : (⟨S256, .f32⟩ : BufTy).Contents (Elt Ideal))
    (b : Fin 4096) (l : Fin 50) (u : Fin 256) :
    val_main_v38 (F := Ideal) x0 x1 x2 x3 x5 x6 x7 x8 (ix4 b 0 l u) = Din.hidden (fun e => Din.emb x5 x6 (x0 (ix2 b 0)) (x1 (ix2 b 0)) e) (fun l e => Din.emb x5 x6 (x2 (ix3 b 0 l)) (x3 (ix3 b 0 l)) e) (fun c u => x7 (ix2 c u)) (fun u => x8 (ix1 u)) l u := by
  rw [val_main_v38_apply, val_main_v37_apply, val_main_v34_apply, val_main_call0_v0_apply, val_main_call0_cst_apply,
    val_main_v36_apply, val_main_v35_apply, idx35_36]
  have hs : (∑ c : Fin 384, val_main_v33 (F := Ideal) x0 x1 x2 x3 x5 x6 (lidx_main_v34 (ix4 b 0 l u) c)
        * x7 (ridx_main_v34 (ix4 b 0 l u) c))
      = ∑ c : Fin 384, Din.cat (fun e => Din.emb x5 x6 (x0 (ix2 b 0)) (x1 (ix2 b 0)) e) (fun l e => Din.emb x5 x6 (x2 (ix3 b 0 l)) (x3 (ix3 b 0 l)) e) l c * x7 (ix2 c u) :=
    Finset.sum_congr rfl fun c _ => by rw [lidx34_ix, ridx34_ix, cat_at]
  rw [hs, Ideal.ofBits_def, Ideal.ofBits_zero_f32]
  rfl

/-! ## The score: one unit over the hidden layer -/

theorem lidx39_ix (b : Fin 4096) (g : Fin 1) (l : Fin 50) (z : Fin 1) (u : Fin 256) :
    lidx_main_v39 (ix4 b g l z) u = ix4 b g l u :=
  funext fun a => Fin.ext (by match a with | ⟨0, _⟩ => rfl | ⟨1, _⟩ => rfl | ⟨2, _⟩ => rfl | ⟨3, _⟩ => rfl)

theorem ridx39_ix (b : Fin 4096) (g : Fin 1) (l : Fin 50) (u : Fin 256) :
    ridx_main_v39 (ix4 b g l 0) u = ix2 u 0 :=
  funext fun a => Fin.ext (by match a with | ⟨0, _⟩ => rfl | ⟨1, _⟩ => rfl)

theorem idx40_41 (i : S4096x1x50x1.Idx) : idx_main_v40 (idx_main_v41 i) = ix1 0 :=
  funext fun a => Fin.ext (by match a with | ⟨0, _⟩ => rfl)

theorem score_at (x0 x1 : (⟨S4096x1, .i32⟩ : BufTy).Contents (Elt Ideal)) (x2 x3 : (⟨S4096x1x50, .i32⟩ : BufTy).Contents (Elt Ideal)) (x5 x6 : (⟨S100000x64, .f32⟩ : BufTy).Contents (Elt Ideal)) (x7 : (⟨S384x256, .f32⟩ : BufTy).Contents (Elt Ideal)) (x8 : (⟨S256, .f32⟩ : BufTy).Contents (Elt Ideal)) (x9 : (⟨S256x1, .f32⟩ : BufTy).Contents (Elt Ideal)) (x10 : (⟨S1, .f32⟩ : BufTy).Contents (Elt Ideal))
    (b : Fin 4096) (l : Fin 50) :
    val_main_v42 (F := Ideal) x0 x1 x2 x3 x5 x6 x7 x8 x9 x10 (ix4 b 0 l 0)
      = Din.score (fun e => Din.emb x5 x6 (x0 (ix2 b 0)) (x1 (ix2 b 0)) e) (fun l e => Din.emb x5 x6 (x2 (ix3 b 0 l)) (x3 (ix3 b 0 l)) e) (fun c u => x7 (ix2 c u)) (fun u => x8 (ix1 u)) (fun u => x9 (ix2 u 0)) (x10 (ix1 0)) l := by
  rw [val_main_v42_apply, val_main_v39_apply, val_main_v41_apply, val_main_v40_apply, idx40_41]
  have hs : (∑ u : Fin 256, val_main_v38 (F := Ideal) x0 x1 x2 x3 x5 x6 x7 x8 (lidx_main_v39 (ix4 b 0 l 0) u)
        * x9 (ridx_main_v39 (ix4 b 0 l 0) u))
      = ∑ u : Fin 256, Din.hidden (fun e => Din.emb x5 x6 (x0 (ix2 b 0)) (x1 (ix2 b 0)) e) (fun l e => Din.emb x5 x6 (x2 (ix3 b 0 l)) (x3 (ix3 b 0 l)) e) (fun c u => x7 (ix2 c u)) (fun u => x8 (ix1 u)) l u * x9 (ix2 u 0) :=
    Finset.sum_congr rfl fun u _ => by rw [lidx39_ix, ridx39_ix, hidden_at]
  rw [hs]
  rfl

/-! ## The result: the masked scores' weighted sum of the keys -/

theorem idx48_ix (b : Fin 4096) (e : Fin 128) : idx_main_v48 (ix3 b 0 e) = ix4 b 0 0 e :=
  funext fun a => Fin.ext (by
    have he : e.val < 128 := e.isLt
    match a with
    | ⟨0, _⟩ => show ((b.val * 1 + 0) * 128 + e.val) / 128 = b.val; omega
    | ⟨1, _⟩ => rfl
    | ⟨2, _⟩ => rfl
    | ⟨3, _⟩ => show ((b.val * 1 + 0) * 128 + e.val) % 128 = e.val; omega)

theorem lidx47_ix (b : Fin 4096) (g z : Fin 1) (e : Fin 128) (l : Fin 50) :
    lidx_main_v47 (ix4 b g z e) l = ix4 b g z l :=
  funext fun a => Fin.ext (by match a with | ⟨0, _⟩ => rfl | ⟨1, _⟩ => rfl | ⟨2, _⟩ => rfl | ⟨3, _⟩ => rfl)

theorem ridx47_ix (b : Fin 4096) (g z : Fin 1) (e : Fin 128) (l : Fin 50) :
    ridx_main_v47 (ix4 b g z e) l = ix4 b g l e :=
  funext fun a => Fin.ext (by match a with | ⟨0, _⟩ => rfl | ⟨1, _⟩ => rfl | ⟨2, _⟩ => rfl | ⟨3, _⟩ => rfl)

theorem idx43_ix (b : Fin 4096) (g z : Fin 1) (l : Fin 50) : idx_main_v43 (ix4 b g z l) = ix4 b g l z :=
  funext fun a => Fin.ext (by match a with | ⟨0, _⟩ => rfl | ⟨1, _⟩ => rfl | ⟨2, _⟩ => rfl | ⟨3, _⟩ => rfl)

theorem idx45_ix (b : Fin 4096) (g z : Fin 1) (l : Fin 50) : idx_main_v45 (ix4 b g z l) = ix3 b 0 l :=
  funext fun a => Fin.ext (by match a with | ⟨0, _⟩ => rfl | ⟨1, _⟩ => rfl | ⟨2, _⟩ => rfl)

/-- THE REFERENCE'S RESULT IS THE ATTENTION LAYER. -/
theorem ref_is_G (x0 x1 : (⟨S4096x1, .i32⟩ : BufTy).Contents (Elt Ideal)) (x2 x3 : (⟨S4096x1x50, .i32⟩ : BufTy).Contents (Elt Ideal)) (x4 : (⟨S4096x1x50, .i1⟩ : BufTy).Contents (Elt Ideal)) (x5 x6 : (⟨S100000x64, .f32⟩ : BufTy).Contents (Elt Ideal)) (x7 : (⟨S384x256, .f32⟩ : BufTy).Contents (Elt Ideal)) (x8 : (⟨S256, .f32⟩ : BufTy).Contents (Elt Ideal)) (x9 : (⟨S256x1, .f32⟩ : BufTy).Contents (Elt Ideal)) (x10 : (⟨S1, .f32⟩ : BufTy).Contents (Elt Ideal)) :
    Cert.ReferenceIdeal.Read.val_main_v48 (F := Ideal) x0 x1 x2 x3 x4 x5 x6 x7 x8 x9 x10
      = Cert.Din.G x0 x1 x2 x3 x4 x5 x6 x7 x8 x9 x10 := by
  funext i
  obtain ⟨b, g, e, rfl⟩ : ∃ (b : Fin 4096) (g : Fin 1) (e : Fin 128), i = ix3 b g e := ⟨i 0, i 1, i 2, eq_ix3 i⟩
  obtain rfl : g = 0 := Subsingleton.elim _ _
  rw [val_main_v48_apply, idx48_ix, val_main_v47_apply]
  have hs : (∑ l : Fin 50, val_main_v46 (F := Ideal) x0 x1 x2 x3 x4 x5 x6 x7 x8 x9 x10 (lidx_main_v47 (ix4 b 0 0 e) l)
        * val_main_v29 (F := Ideal) x2 x3 x5 x6 (ridx_main_v47 (ix4 b 0 0 e) l))
      = ∑ l : Fin 50, (Din.score (fun e => Din.emb x5 x6 (x0 (ix2 b 0)) (x1 (ix2 b 0)) e) (fun l e => Din.emb x5 x6 (x2 (ix3 b 0 l)) (x3 (ix3 b 0 l)) e) (fun c u => x7 (ix2 c u)) (fun u => x8 (ix1 u)) (fun u => x9 (ix2 u 0)) (x10 (ix1 0)) l
          * (((x4 (ix3 b 0 l)).toNat : ℝ) : EReal)) * Din.emb x5 x6 (x2 (ix3 b 0 l)) (x3 (ix3 b 0 l)) e :=
    Finset.sum_congr rfl fun l _ => by
      rw [lidx47_ix, ridx47_ix, val_main_v46_apply, val_main_v43_apply, idx43_ix, val_main_v45_apply, idx45_ix,
        val_main_v44_apply, score_at, emb_k]
      rfl
  rw [hs]
  rfl

end Cert.Din.Ref

end
-- ==== Proof.Core.lean ====
/-
  The kernel's arrangement of the attention layer, and that it is the reference's.

  The kernel works on key rows padded from 50 to 56 (the six extra keys are zero rows with a zero mask), computes the
  dense layer's 384-term sum in two pieces — the key and product features (256 terms, against rows 128..383 of the
  weight) plus the query features (128 terms, against rows 0..127) — and applies the mask by choosing between the
  score and zero where the reference multiplies by the mask's 0 or 1.  On the extended reals addition is a commutative
  monoid, `x * 0 = 0` and `x * 1 = x` for every `x`, so the two arrangements agree with no finiteness assumed.
-/
import proofs.«166987_j34565896798471_2_alg».proof.Proof.Spec

noncomputable section

namespace Cert.Din

open Idealize.ShloMosaic
open scoped BigOperators

/-- A sum over 384 terms is the sum of its first 128 and its last 256. -/
theorem sum_384 {M : Type*} [AddCommMonoid M] (f : Fin 384 → M) :
    ∑ c, f c = (∑ e : Fin 128, f ⟨e.val, by omega⟩) + ∑ c : Fin 256, f ⟨128 + c.val, by omega⟩ := by
  exact Fin.sum_univ_add (a := 128) (b := 256) (fun i : Fin (128 + 256) => f ⟨i.val, i.isLt⟩)

/-- A sum over 56 terms is the sum of its first 50 and its last 6. -/
theorem sum_56 {M : Type*} [AddCommMonoid M] (f : Fin 56 → M) :
    ∑ l, f l = (∑ l : Fin 50, f ⟨l.val, by omega⟩) + ∑ l : Fin 6, f ⟨50 + l.val, by omega⟩ := by
  exact Fin.sum_univ_add (a := 50) (b := 6) (fun i : Fin (50 + 6) => f ⟨i.val, i.isLt⟩)

/-- The f32 word 0x3F000000 denotes one half. -/
theorem ofBits_half : Ideal.ofBits .f32 0x3F000000#32 = ((1 / 2 : ℝ) : EReal) := by
  have h : (8388608 : ℝ) * ((2 : ℝ) ^ 24)⁻¹ = 2⁻¹ := by norm_num
  simp [Ideal.ofBits, Ideal.ieee]
  exact_mod_cast h

/-- A mask value 1 is above one half. -/
theorem cmp_one_half : Ideal.cmp .ogt (1 : EReal) (Ideal.ofBits .f32 0x3F000000#32) = 1#1 := by
  rw [ofBits_half]
  have h : ((1 / 2 : ℝ) : EReal) < 1 := by exact_mod_cast (by norm_num : (1 / 2 : ℝ) < 1)
  show BitVec.ofBool (decide (((1 / 2 : ℝ) : EReal) < 1)) = 1#1
  rw [decide_eq_true h]
  rfl

/-- A mask value 0 is not. -/
theorem cmp_zero_half : Ideal.cmp .ogt (0 : EReal) (Ideal.ofBits .f32 0x3F000000#32) = 0#1 := by
  rw [ofBits_half]
  have h : ¬ ((1 / 2 : ℝ) : EReal) < 0 := by
    rw [not_lt]; exact_mod_cast (by norm_num : (0 : ℝ) ≤ 1 / 2)
  show BitVec.ofBool (decide (((1 / 2 : ℝ) : EReal) < 0)) = 0#1
  rw [decide_eq_false h]
  rfl

section Row

variable (q : Fin 128 → EReal) (k : Fin 50 → Fin 128 → EReal) (mk : Fin 50 → EReal)
  (W : Fin 384 → Fin 256 → EReal) (bh wo : Fin 256 → EReal) (bo : EReal)
  (kp : Fin 56 → Fin 128 → EReal) (mp : Fin 56 → EReal)
  (W1 : Fin 128 → Fin 256 → EReal) (W23 : Fin 256 → Fin 256 → EReal)

/-- The 256 features the kernel joins for padded key `l`: the key, then the query-key product. -/
def catK (l : Fin 56) (c : Fin 256) : EReal :=
  if h : c.val < 128 then kp l ⟨c.val, h⟩ else q ⟨c.val - 128, by omega⟩ * kp l ⟨c.val - 128, by omega⟩

/-- The kernel's hidden unit: the key and product terms against the weight's last 256 rows `W23`, then the query terms
    against its first 128 rows `W1`, then the bias. -/
def hiddenK (l : Fin 56) (u : Fin 256) : EReal :=
  max (((∑ c : Fin 256, catK q kp l c * W23 c u) + ∑ e : Fin 128, q e * W1 e u) + bh u) 0

/-- The kernel's score of padded key `l`. -/
def scoreK (l : Fin 56) : EReal := (∑ u, hiddenK q bh kp W1 W23 l u * wo u) + bo

/-- The kernel's result feature: over the 56 padded keys, the score where the mask is above one half and zero
    elsewhere, times the key. -/
def attendK (e : Fin 128) : EReal :=
  ∑ l : Fin 56, Scalar.select (Ideal.cmp .ogt (mp l) (Ideal.ofBits .f32 0x3F000000#32)) (scoreK q bh wo bo kp W1 W23 l) 0 * kp l e

variable {q k mk W bh wo bo kp mp W1 W23}

theorem hiddenK_eq (hk : ∀ (l : Fin 50) (e : Fin 128), kp ⟨l.val, by omega⟩ e = k l e)
    (hW1 : ∀ (e : Fin 128) (u : Fin 256), W1 e u = W ⟨e.val, by omega⟩ u)
    (hW23 : ∀ (c : Fin 256) (u : Fin 256), W23 c u = W ⟨128 + c.val, by omega⟩ u) (l : Fin 50) (u : Fin 256) :
    hiddenK q bh kp W1 W23 ⟨l.val, by omega⟩ u = hidden q k W bh l u := by
  unfold hiddenK hidden
  have hsum : (∑ c, cat q k l c * W c u)
      = (∑ c : Fin 256, catK q kp ⟨l.val, by omega⟩ c * W23 c u) + ∑ e : Fin 128, q e * W1 e u := by
    rw [sum_384 (fun c => cat q k l c * W c u), add_comm]
    refine congrArg₂ (· + ·) ?_ ?_
    · refine Finset.sum_congr rfl fun c _ => ?_
      rw [hW23]
      refine congrArg (· * W ⟨128 + c.val, by omega⟩ u) ?_
      unfold catK cat
      by_cases hc : c.val < 128
      · have h1 : ¬ (128 + c.val < 128) := by omega
        have h2 : 128 + c.val < 256 := by omega
        rw [dif_pos hc, dif_neg h1, dif_pos h2, hk]
        exact congrArg (k l) (Fin.ext (by simp))
      · have h1 : ¬ (128 + c.val < 128) := by omega
        have h2 : ¬ (128 + c.val < 256) := by omega
        rw [dif_neg hc, dif_neg h1, dif_neg h2, hk]
        have e1 : (⟨128 + c.val - 256, by omega⟩ : Fin 128) = ⟨c.val - 128, by omega⟩ := Fin.ext (by simp; omega)
        rw [e1]
    · refine Finset.sum_congr rfl fun e _ => ?_
      rw [hW1]
      refine congrArg (· * W ⟨e.val, by omega⟩ u) ?_
      unfold cat
      rw [dif_pos (show (⟨e.val, by omega⟩ : Fin 384).val < 128 from e.isLt)]
  rw [hsum]

theorem scoreK_eq (hk : ∀ (l : Fin 50) (e : Fin 128), kp ⟨l.val, by omega⟩ e = k l e)
    (hW1 : ∀ (e : Fin 128) (u : Fin 256), W1 e u = W ⟨e.val, by omega⟩ u)
    (hW23 : ∀ (c : Fin 256) (u : Fin 256), W23 c u = W ⟨128 + c.val, by omega⟩ u) (l : Fin 50) :
    scoreK q bh wo bo kp W1 W23 ⟨l.val, by omega⟩ = score q k W bh wo bo l := by
  unfold scoreK score
  congr 1
  exact Finset.sum_congr rfl fun u _ => by rw [hiddenK_eq hk hW1 hW23]

/-- THE TWO ARRANGEMENTS AGREE: with the padded keys the keys followed by zero rows, the padded mask the mask followed
    by zeros, and every mask value 0 or 1. -/
theorem attendK_eq (hk : ∀ (l : Fin 50) (e : Fin 128), kp ⟨l.val, by omega⟩ e = k l e)
    (hk0 : ∀ (l : Fin 6) (e : Fin 128), kp ⟨50 + l.val, by omega⟩ e = 0)
    (hm : ∀ l : Fin 50, mp ⟨l.val, by omega⟩ = mk l) (hmk : ∀ l, mk l = 0 ∨ mk l = 1)
    (hW1 : ∀ (e : Fin 128) (u : Fin 256), W1 e u = W ⟨e.val, by omega⟩ u)
    (hW23 : ∀ (c : Fin 256) (u : Fin 256), W23 c u = W ⟨128 + c.val, by omega⟩ u) (e : Fin 128) :
    attendK q bh wo bo kp mp W1 W23 e = attend q k mk W bh wo bo e := by
  unfold attendK attend
  rw [sum_56]
  have htail : (∑ l : Fin 6, Scalar.select (Ideal.cmp .ogt (mp ⟨50 + l.val, by omega⟩) (Ideal.ofBits .f32 0x3F000000#32))
      (scoreK q bh wo bo kp W1 W23 ⟨50 + l.val, by omega⟩) 0 * kp ⟨50 + l.val, by omega⟩ e) = 0 :=
    Finset.sum_eq_zero fun l _ => by rw [hk0, mul_zero]
  rw [htail, add_zero]
  refine Finset.sum_congr rfl fun l _ => ?_
  rw [hm, hk, scoreK_eq hk hW1 hW23]
  rcases hmk l with h | h
  · rw [h, cmp_zero_half, ValueIdx.select_zero, mul_zero]
  · rw [h, cmp_one_half, ValueIdx.select_one, mul_one]

end Row

end Cert.Din

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.KernelBody.lean ====
/-
  The kernel body's stored value, read at one element.

  At a grid point the body holds a block of 64 batch rows: the queries (64 x 128), the padded keys (64 x 56 x 128),
  the padded mask (64 x 56), the two weight pieces, the output weight and the two biases.  Its one store writes, at
  row `p` and feature `e`, the kernel's arrangement of the attention sum for that row: the rows of the flattened
  (64 * 56) x 256 activations are the pairs (p, l) in row-major order, so every reshape is a renaming of indices,
  every matrix product a sum over its contracted coordinate, and the lane reduction the sum over the 56 keys.
-/
import proofs.«166987_j34565896798471_2_alg».proof.Proof.Gen.KernelIdeal.Skeleton
import proofs.«166987_j34565896798471_2_alg».proof.Proof.Core
import proofs.«166987_j34565896798471_2_alg».proof.Proof.LibPlainDot
import Idealize.ShloMosaic.Lib.Pipeline.Value
import Idealize.ShloMosaic.Lib.ValueIdx
import Idealize.ShloMosaic.PureOps.Ideal.Laws

noncomputable section

namespace Cert.Din.Body

open Idealize.ShloMosaic Idealize.ShloMosaic.ValueIdx Cert.KernelIdeal Cert.KernelIdeal.Gen
open scoped BigOperators

/-- Row `(p, l)` of the flattened activations. -/
def flat (p : Fin 64) (l : Fin 56) : Fin 3584 := ⟨p.val * 56 + l.val, by have := p.isLt; have := l.isLt; omega⟩

/-! ## The reshapes and broadcasts of the body, read at an index -/

section Layout
variable {φ : FTy}

theorem rows_in (v : FVec Ideal S64x56x256 φ) (p : Fin 64) (l : Fin 56) (c : Fin 256) :
    shapeCast S3584x256 v shapeCasts_S64x56x256_S3584x256 (ix2 (flat p l) c) = v (ix3 p l c) :=
  shapeCast_apply v _ _ (ix3 p l c) (by
    rw [Shape.rowMajor_val_three, Shape.rowMajor_val_two]; rfl)

theorem rows_out (v : FVec Ideal S3584x256 φ) (p : Fin 64) (l : Fin 56) (u : Fin 256) :
    shapeCast S64x56x256 v shapeCasts_S3584x256_S64x56x256 (ix3 p l u) = v (ix2 (flat p l) u) :=
  shapeCast_apply v _ _ (ix2 (flat p l) u) (by
    rw [Shape.rowMajor_val_three, Shape.rowMajor_val_two]; rfl)

theorem col_out (v : FVec Ideal S3584x1 φ) (p : Fin 64) (l : Fin 56) :
    shapeCast S64x56x1 v shapeCasts_S3584x1_S64x56x1 (ix3 p l 0) = v (ix2 (flat p l) 0) :=
  shapeCast_apply v _ _ (ix2 (flat p l) 0) (by
    rw [Shape.rowMajor_val_three, Shape.rowMajor_val_two]; rfl)

theorem mask_col (v : FVec Ideal S64x56 φ) (p : Fin 64) (l : Fin 56) :
    shapeCast S64x56x1 v shapeCasts_S64x56_S64x56x1 (ix3 p l 0) = v (ix2 p l) :=
  shapeCast_apply v _ _ (ix2 p l) (by
    rw [Shape.rowMajor_val_three, Shape.rowMajor_val_two]
    show p.val * 56 + l.val = (p.val * 56 + l.val) * 1 + 0; omega)

theorem splat_col (v : FVec Ideal S1x1 φ) (r : Fin 3584) :
    broadcastTo S3584x1 v broadcasts_S1x1_S3584x1 (ix2 r 0) = v (ix2 0 0) :=
  broadcastTo_apply v _ _ (ix2 0 0) (fun a => by match a with | ⟨0, _⟩ => rfl | ⟨1, _⟩ => rfl)

theorem lanes (v : FVec Ideal S64x56x1 φ) (p : Fin 64) (l : Fin 56) (e : Fin 128) :
    broadcastTo S64x56x128 v broadcasts_S64x56x1_S64x56x128 (ix3 p l e) = v (ix3 p l 0) :=
  broadcastTo_apply v _ _ (ix3 p l 0) (fun a => by match a with | ⟨0, _⟩ => rfl | ⟨1, _⟩ => rfl | ⟨2, _⟩ => rfl)

theorem query_rows (v : FVec Ideal S64x128 φ) (p : Fin 64) (l : Fin 56) (e : Fin 128) :
    broadcastTo S64x56x128 (shapeCast S64x1x128 v shapeCasts_S64x128_S64x1x128) broadcasts_S64x1x128_S64x56x128 (ix3 p l e)
      = v (ix2 p e) := by
  refine (broadcastTo_apply _ _ _ (ix3 p 0 e) (fun a => by match a with | ⟨0, _⟩ => rfl | ⟨1, _⟩ => rfl | ⟨2, _⟩ => rfl)).trans ?_
  exact shapeCast_apply v _ _ (ix2 p e) (by
    rw [Shape.rowMajor_val_three, Shape.rowMajor_val_two]
    show p.val * 128 + e.val = (p.val * 1 + 0) * 128 + e.val; omega)

theorem unit_rows (v : FVec Ideal S64x256 φ) (p : Fin 64) (l : Fin 56) (u : Fin 256) :
    broadcastTo S64x56x256 (shapeCast S64x1x256 v shapeCasts_S64x256_S64x1x256) broadcasts_S64x1x256_S64x56x256 (ix3 p l u)
      = v (ix2 p u) := by
  refine (broadcastTo_apply _ _ _ (ix3 p 0 u) (fun a => by match a with | ⟨0, _⟩ => rfl | ⟨1, _⟩ => rfl | ⟨2, _⟩ => rfl)).trans ?_
  exact shapeCast_apply v _ _ (ix2 p u) (by
    rw [Shape.rowMajor_val_three, Shape.rowMajor_val_two]
    show p.val * 256 + u.val = (p.val * 1 + 0) * 256 + u.val; omega)

theorem bias_rows (v : FVec Ideal S1x256 φ) (p : Fin 64) (l : Fin 56) (u : Fin 256) :
    broadcastTo S64x56x256 (shapeCast S1x1x256 v shapeCasts_S1x256_S1x1x256) broadcasts_S1x1x256_S64x56x256 (ix3 p l u)
      = v (ix2 0 u) := by
  refine (broadcastTo_apply _ _ _ (ix3 0 0 u) (fun a => by match a with | ⟨0, _⟩ => rfl | ⟨1, _⟩ => rfl | ⟨2, _⟩ => rfl)).trans ?_
  exact shapeCast_apply v _ _ (ix2 0 u) (by rw [Shape.rowMajor_val_three, Shape.rowMajor_val_two]; rfl)

/-- The joined features: the first piece below column 128, the second from there on. -/
theorem joined (a b : FVec Ideal S64x56x128 φ) (p : Fin 64) (l : Fin 56) (c : Fin 256) :
    concatenate S64x56x256 2 [⟨S64x56x128, a⟩, ⟨S64x56x128, b⟩] concatenates_S64x56x128_S64x56x128_S64x56x256_d2 (ix3 p l c)
      = if h : c.val < 128 then a (ix3 p l ⟨c.val, h⟩) else b (ix3 p l ⟨c.val - 128, by omega⟩) := by
  by_cases h : c.val < 128
  · rw [dif_pos h]
    exact concatenate_pair_apply_left (2 : Fin 3) a b _ (ix3 p l c) rfl (ix3 p l ⟨c.val, h⟩)
      (fun d => by match d with | ⟨0, _⟩ => rfl | ⟨1, _⟩ => rfl | ⟨2, _⟩ => rfl)
  · rw [dif_neg h]
    exact concatenate_pair_apply_right (2 : Fin 3) a b _ (ix3 p l c) rfl rfl (ix3 p l ⟨c.val - 128, by omega⟩)
      (fun d hd => by match d with | ⟨0, _⟩ => rfl | ⟨1, _⟩ => rfl | ⟨2, _⟩ => exact absurd rfl hd)
      (by show c.val - 128 + 128 = c.val; omega)

end Layout

/-- The lane reduction over the 56 keys. -/
theorem key_sum (src : FVec Ideal S64x56x128 .f32) (hφ : FKind.Formats .f32)
    (hacc : (0x00000000#32 : BitVec 32) = 0x00000000#32) (p : Fin 64) (e : Fin 128) :
    multiReduction .add [1] S64x128 src 0x00000000#32 reduces_S64x56x128_S64x128 hφ hacc (ix2 p e)
      = ∑ l : Fin 56, src (ix3 p l e) := by
  refine (Ideal.multiReduction_add_single src 0x00000000#32 reduces_S64x56x128_S64x128 hφ hacc (ix2 p e)).trans ?_
  refine Finset.sum_congr rfl fun l _ => congrArg src ?_
  funext a
  match a with
  | ⟨0, _⟩ => rfl
  | ⟨1, _⟩ => rfl
  | ⟨2, _⟩ => rfl

/-! ## The stored value -/

section Payload

variable (x0 : Vec Ideal S64x128 .f32) (x1 : Vec Ideal S64x56x128 .f32) (x2 : Vec Ideal S64x56 .f32)
  (x3 : Vec Ideal S128x256 .bf16) (x4 : Vec Ideal S256x256 .bf16) (x5 : Vec Ideal S256x1 .bf16)
  (x6 : Vec Ideal S1x256 .f32) (x7 : Vec Ideal S1x1 .f32)

/-- The score product before the output bias, at flattened row `(p, l)`: the sum over the hidden units of the
    rectified unit times the output weight. -/
theorem pay5_apply (p : Fin 64) (l : Fin 56) :
    k0_pay5 x0 x1 x3 x4 x6 x5 (ix2 (flat p l) 0)
      = ∑ u : Fin 256, hiddenK (fun e' => x0 (ix2 p e')) (fun u => x6 (ix2 0 u)) (fun l e' => x1 (ix3 p l e'))
          (fun e' u => x3 (ix2 e' u)) (fun c u => x4 (ix2 c u)) l u * x5 (ix2 u 0) := by
  unfold k0_pay5
  refine (Cert.Lib.PlainDot.matmul_zero_apply 3584 256 1 none _ _ (ix2 (flat p l) 0)).trans ?_
  refine Finset.sum_congr rfl fun u _ => ?_
  refine congrArg₂ (fun a b : EReal => a * b) ?_ ?_
  · refine (rows_in _ p l u).trans ?_
    unfold hiddenK
    refine congrArg₂ (fun a b : EReal => max a b) ?_ Ideal.ofBits_zero_f32
    refine congrArg₂ (fun a b : EReal => a + b) (congrArg₂ (fun a b : EReal => a + b) ?_ ?_) ?_
    · refine (rows_out _ p l u).trans ?_
      refine (Cert.Lib.PlainDot.matmul_zero_apply 3584 256 256 none _ _ (ix2 (flat p l) u)).trans ?_
      refine Finset.sum_congr rfl fun c _ => ?_
      refine congrArg₂ (fun a b : EReal => a * b) ?_ ?_
      · refine (rows_in _ p l c).trans ?_
        refine (joined _ _ p l c).trans ?_
        unfold catK
        by_cases hc : c.val < 128
        · rw [dif_pos hc, dif_pos hc]
          unfold k0_pay2
          exact congrFun (shapeCast_self x1 _) _
        · rw [dif_neg hc, dif_neg hc]
          refine congrArg₂ (fun a b : EReal => a * b) ?_ ?_
          · refine (query_rows _ p l _).trans ?_
            exact congrFun (shapeCast_self x0 _) _
          · unfold k0_pay2
            exact congrFun (shapeCast_self x1 _) _
      · exact congrFun (shapeCast_self x4 _) _
    · refine (unit_rows _ p l u).trans ?_
      refine (Cert.Lib.PlainDot.matmul_zero_apply 64 128 256 none _ _ (ix2 p u)).trans ?_
      refine Finset.sum_congr rfl fun e' _ => ?_
      refine congrArg₂ (fun a b : EReal => a * b) ?_ ?_
      · exact congrFun (shapeCast_self x0 _) _
      · exact congrFun (shapeCast_self x3 _) _
    · refine (bias_rows _ p l u).trans ?_
      exact congrFun (shapeCast_self x6 _) _
  · exact congrFun (shapeCast_self x5 _) _

/-- THE STORED VALUE at row `p`, feature `e` of the block: the kernel's arrangement of the attention sum over the
    block's row `p`. -/
theorem pay_apply (p : Fin 64) (e : Fin 128) :
    k0_pay1 (k0_pay2 x1) (k0_pay3 x2) (k0_pay4 x7) (k0_pay5 x0 x1 x3 x4 x6 x5) (ix2 p e)
      = attendK (fun e' => x0 (ix2 p e')) (fun u => x6 (ix2 0 u)) (fun u => x5 (ix2 u 0)) (x7 (ix2 0 0))
          (fun l e' => x1 (ix3 p l e')) (fun l => x2 (ix2 p l)) (fun e' u => x3 (ix2 e' u)) (fun c u => x4 (ix2 c u)) e := by
  unfold k0_pay1
  refine (key_sum _ _ _ p e).trans ?_
  unfold attendK
  refine Finset.sum_congr rfl fun l _ => ?_
  refine congrArg₂ (fun a b : EReal => a * b) ?_ ?_
  · refine (lanes _ p l e).trans ?_
    refine congr (congr (congrArg Scalar.select ?_) ?_) ?_
    · refine congrArg₂ (Ideal.cmp .ogt) ?_ rfl
      refine (mask_col _ p l).trans ?_
      unfold k0_pay3
      exact congrFun (shapeCast_self x2 _) _
    · refine (col_out _ p l).trans ?_
      unfold scoreK
      refine congrArg₂ (fun a b : EReal => a + b) (pay5_apply x0 x1 x3 x4 x5 x6 p l) ?_
      refine (splat_col _ _).trans ?_
      unfold k0_pay4
      exact congrFun (shapeCast_self x7 _) _
    · exact Ideal.ofBits_zero_f32
  · unfold k0_pay2
    exact congrFun (shapeCast_self x1 _) _

end Payload

end Cert.Din.Body

end
-- ==== Proof.LibRowIndex.lean ====
/-
  Rows taken from, and rows added into, a table at integer positions — read at one element.

  `x[idx]` of a table `x : [N, C]` at positions `idx : [R]` is a gather whose result row `e` is the table's row at
  `idx e`, the position read as a signed integer and clamped into `[0, N - 1]`.  A segment sum (`zeros.at[idx].add(upd)`)
  of updates `upd : [R, C]` is a scatter with an adding body: element `(n, k)` of the result is the operand's element
  plus the sum of `upd (e, k)` over the positions `e` whose index, read as a signed integer and NOT clamped, is `n`;
  a position whose index is outside `[0, N)` adds nothing.  The same for a flat table `x : [N]`.
-/
import Idealize.ShloMosaic.PureOps.Ideal
import Idealize.ShloMosaic.Lib.ValueIdx

noncomputable section

namespace Cert.LibRowIndex

open Idealize.ShloMosaic Idealize.ShloMosaic.ValueIdx
open scoped BigOperators

/-! ## Rows gathered from a table `[N, C]` at start indices `[R, 1]` -/

/-- The dimension numbers of `x[idx]` for a table `[N, C]`, start indices `[R, 1]` and a result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row position `e` selects: its start index read signed and clamped into `[0, N - 1]`. -/
def rowOf (N : Nat) {R w : Nat} (hN : 0 < N) (idx : IVec ⟨2, ![R, 1]⟩ w) (e : Fin R) : Fin N :=
  ⟨min (idx (ix2 e 0)).toInt.toNat (N - 1), by omega⟩

theorem rowGather_operand0 {N R C w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (k : Fin C) :
    (rowGatherDims N R C wf).start (ix2 e k) idx (0 : Fin 2) + (rowGatherDims N R C wf).batchCoord (ix2 e k) (0 : Fin 2)
      + (rowGatherDims N R C wf).offCoord (ix2 e k) (0 : Fin 2) = (rowOf N hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N R C wf).startIndexMap from List.mem_singleton.mpr rfl)]
  have hsi : (rowGatherDims N R C wf).siIdx (ix2 e k) ⟨List.idxOf (0 : Fin 2) (rowGatherDims N R C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowGather_operand1 {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (k : Fin C) :
    (rowGatherDims N R C wf).start (ix2 e k) idx (1 : Fin 2) + (rowGatherDims N R C wf).batchCoord (ix2 e k) (1 : Fin 2)
      + (rowGatherDims N R C wf).offCoord (ix2 e k) (1 : Fin 2) = k.val := by
  rw [GatherDims.batchCoord_eq_zero _ _ _ List.not_mem_nil]
  have hs : (rowGatherDims N R C wf).start (ix2 e k) idx (1 : Fin 2) = 0 := by
    unfold GatherDims.start
    rw [dif_neg (by simp)]
  have hk : (1 : Fin 2) ∈ (rowGatherDims N R C wf).sKept :=
    (GatherDims.mem_sKept _ _).mpr ⟨by simp, by simp⟩
  rw [hs]
  unfold GatherDims.offCoord
  rw [dif_pos hk]
  simp only [Nat.add_zero, Nat.zero_add]
  rfl

/-- THE ROW GATHER READ AT `(e, k)`: the table's element `k` of the row position `e` selects. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k) = x (ix2 (rowOf N hN idx e) k) := by
  unfold Host.gather
  congr 1
  funext a
  refine Fin.ext ?_
  show (rowGatherDims N R C wf).start (ix2 e k) idx a + (rowGatherDims N R C wf).batchCoord (ix2 e k) a
    + (rowGatherDims N R C wf).offCoord (ix2 e k) a = _
  match a with
  | ⟨0, _⟩ => exact rowGather_operand0 hN wf idx e k
  | ⟨1, _⟩ => exact rowGather_operand1 wf idx e k

/-! ## Rows added into a table `[N, C]` at scatter indices `[R, 1]` -/

/-- The dimension numbers of `zeros.at[idx].add(upd)` for a table `[N, C]`, scatter indices `[R, 1]`, updates `[R, C]`. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

theorem rowScatter_start0 (h : 0 < 2) :
    (rowScatterDims N R C wf).start (ix2 e k) idx ⟨0, h⟩ = (idx (ix2 e 0)).toInt := by
  unfold ScatterDims.start
  rw [dif_pos (show (⟨0, h⟩ : Fin 2) ∈ (rowScatterDims N R C wf).scatterDimsToOperandDims from List.mem_singleton.mpr rfl)]
  have hsi : (rowScatterDims N R C wf).siIdx (ix2 e k)
      ⟨List.idxOf (⟨0, h⟩ : Fin 2) (rowScatterDims N R C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start1 (h : 1 < 2) : (rowScatterDims N R C wf).start (ix2 e k) idx ⟨1, h⟩ = 0 := by
  unfold ScatterDims.start
  rw [dif_neg (by simp)]

theorem rowScatter_window0 (h : 0 < 2) : (rowScatterDims N R C wf).window (ix2 e k) ⟨0, h⟩ = 0 := by
  unfold ScatterDims.window
  rw [dif_neg (by simp [ScatterDims.sKept, Shape.kept])]

theorem rowScatter_window1 (h : 1 < 2) : (rowScatterDims N R C wf).window (ix2 e k) ⟨1, h⟩ = k.val := by
  unfold ScatterDims.window
  rw [dif_pos (by simp [ScatterDims.sKept, Shape.kept])]
  rfl

/-- Where update position `(e, k)` lands: on row `idx e` (signed, unclamped) and column `k`, or nowhere. -/
theorem rowScatter_lands (n : Fin N) (k' : Fin C) :
    (rowScatterDims N R C wf).resultIdx? (ix2 e k) idx = some (ix2 n k')
      ↔ (idx (ix2 e 0)).toInt = (n.val : Int) ∧ k = k' := by
  unfold ScatterDims.resultIdx?
  constructor
  · intro h
    split at h
    · rename_i hall
      have hf := Option.some.inj h
      have h0 := congrArg Fin.val (congrFun hf (⟨0, Nat.zero_lt_two⟩ : Fin 2))
      have h1 := congrArg Fin.val (congrFun hf (⟨1, Nat.one_lt_two⟩ : Fin 2))
      have a0 := hall (⟨0, Nat.zero_lt_two⟩ : Fin 2)
      simp only [rowScatter_start0, rowScatter_window0, rowScatter_start1, rowScatter_window1] at h0 h1 a0
      refine ⟨?_, Fin.ext ?_⟩
      · have : ((idx (ix2 e 0)).toInt + ((0 : Nat) : Int)).toNat = n.val := h0
        omega
      · have : ((0 : Int) + (k.val : Int)).toNat = k'.val := h1
        omega
    · exact absurd h (by simp)
  · rintro ⟨hv, rfl⟩
    have hall : ∀ a, 0 ≤ (rowScatterDims N R C wf).start (ix2 e k) idx a + (rowScatterDims N R C wf).window (ix2 e k) a
        ∧ (rowScatterDims N R C wf).start (ix2 e k) idx a + (rowScatterDims N R C wf).window (ix2 e k) a
          < (⟨2, ![N, C]⟩ : Shape).size a := by
      intro a
      match a with
      | ⟨0, h0⟩ =>
        rw [rowScatter_start0, rowScatter_window0, hv]
        have := n.isLt
        constructor
        · omega
        · show (n.val : Int) + ((0 : Nat) : Int) < (N : Int); omega
      | ⟨1, h1⟩ =>
        rw [rowScatter_start1, rowScatter_window1]
        have := k.isLt
        constructor
        · omega
        · show (0 : Int) + (k.val : Int) < (C : Int); omega
    rw [dif_pos hall]
    congr 1
    funext a
    refine Fin.ext ?_
    match a with
    | ⟨0, h0⟩ =>
      show ((rowScatterDims N R C wf).start (ix2 e k) idx ⟨0, h0⟩ + (rowScatterDims N R C wf).window (ix2 e k) ⟨0, h0⟩).toNat = n.val
      rw [rowScatter_start0, rowScatter_window0, hv]; omega
    | ⟨1, h1⟩ =>
      show ((rowScatterDims N R C wf).start (ix2 e k) idx ⟨1, h1⟩ + (rowScatterDims N R C wf).window (ix2 e k) ⟨1, h1⟩).toNat = k.val
      rw [rowScatter_start1, rowScatter_window1]; omega

end RowScatter

/-- THE ROW SCATTER-ADD READ AT `(n, k)`: the operand's element plus the updates' column `k` summed over the positions
    whose index (signed, unclamped) is `n`. -/
theorem rowScatterAdd_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (n : Fin N) (k : Fin C) :
    Ideal.hostScatterAdd (rowScatterDims N R C wf) x idx upd (ix2 n k)
      = x (ix2 n k) + ∑ e ∈ Finset.univ.filter (fun e : Fin R => (idx (ix2 e 0)).toInt = (n.val : Int)), upd (ix2 e k) := by
  unfold Ideal.hostScatterAdd
  congr 1
  rw [Finset.sum_filter, sum_idx2, Finset.sum_filter]
  refine Finset.sum_congr rfl fun e _ => ?_
  simp only [rowScatter_lands]
  by_cases hv : (idx (ix2 e 0)).toInt = (n.val : Int)
  · simp only [hv, true_and, if_true]
    rw [Finset.sum_ite_eq' Finset.univ k (fun k' => upd (ix2 e k'))]
    simp
  · simp only [hv, false_and, if_false, Finset.sum_const_zero]

/-! ## Ones (or any values) added into a flat table `[N]` at scatter indices `[R, 1]` -/

/-- The dimension numbers of `zeros.at[idx].add(upd)` for a flat table `[N]`, scatter indices `[R, 1]`, updates `[R]`. -/
abbrev flatScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section FlatScatter
variable {N R w : Nat} (wf : ScatterDims.WF ⟨1, ![N]⟩ ⟨2, ![R, 1]⟩ ⟨1, ![R]⟩ [] [0] [0] 1)
  (idx : IVec ⟨2, ![R, 1]⟩ w) (e : Fin R)

theorem flatScatter_start0 (h : 0 < 1) :
    (flatScatterDims N R wf).start (ix1 e) idx ⟨0, h⟩ = (idx (ix2 e 0)).toInt := by
  unfold ScatterDims.start
  rw [dif_pos (show (⟨0, h⟩ : Fin 1) ∈ (flatScatterDims N R wf).scatterDimsToOperandDims from List.mem_singleton.mpr rfl)]
  have hsi : (flatScatterDims N R wf).siIdx (ix1 e)
      ⟨List.idxOf (⟨0, h⟩ : Fin 1) (flatScatterDims N R wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

theorem flatScatter_window0 (h : 0 < 1) : (flatScatterDims N R wf).window (ix1 e) ⟨0, h⟩ = 0 := by
  unfold ScatterDims.window
  rw [dif_neg (by simp [ScatterDims.sKept, Shape.kept])]

/-- Where update position `e` lands: on element `idx e` (signed, unclamped), or nowhere. -/
theorem flatScatter_lands (n : Fin N) :
    (flatScatterDims N R wf).resultIdx? (ix1 e) idx = some (ix1 n) ↔ (idx (ix2 e 0)).toInt = (n.val : Int) := by
  unfold ScatterDims.resultIdx?
  constructor
  · intro h
    split at h
    · rename_i hall
      have hf := Option.some.inj h
      have h0 := congrArg Fin.val (congrFun hf (⟨0, Nat.zero_lt_one⟩ : Fin 1))
      have a0 := hall (⟨0, Nat.zero_lt_one⟩ : Fin 1)
      simp only [flatScatter_start0, flatScatter_window0] at h0 a0
      have : ((idx (ix2 e 0)).toInt + ((0 : Nat) : Int)).toNat = n.val := h0
      omega
    · exact absurd h (by simp)
  · intro hv
    have hall : ∀ a, 0 ≤ (flatScatterDims N R wf).start (ix1 e) idx a + (flatScatterDims N R wf).window (ix1 e) a
        ∧ (flatScatterDims N R wf).start (ix1 e) idx a + (flatScatterDims N R wf).window (ix1 e) a
          < (⟨1, ![N]⟩ : Shape).size a := by
      intro a
      match a with
      | ⟨0, h0⟩ =>
        rw [flatScatter_start0, flatScatter_window0, hv]
        have := n.isLt
        constructor
        · omega
        · show (n.val : Int) + ((0 : Nat) : Int) < (N : Int); omega
    rw [dif_pos hall]
    congr 1
    funext a
    refine Fin.ext ?_
    match a with
    | ⟨0, h0⟩ =>
      show ((flatScatterDims N R wf).start (ix1 e) idx ⟨0, h0⟩ + (flatScatterDims N R wf).window (ix1 e) ⟨0, h0⟩).toNat = n.val
      rw [flatScatter_start0, flatScatter_window0, hv]; omega

end FlatScatter

/-- A sum over the rank-1 index set is the sum over its coordinate. -/
theorem sum_idx1 {M : Type*} [AddCommMonoid M] {n : Nat} (f : (⟨1, ![n]⟩ : Shape).Idx → M) :
    ∑ i, f i = ∑ a : Fin n, f (ix1 a) := by
  refine (Fintype.sum_equiv ⟨fun i => i 0, fun a => ix1 a, fun i => (eq_ix1 i).symm, fun _ => rfl⟩ _ _ fun i => ?_)
  exact congrArg f (eq_ix1 i)

/-- THE FLAT SCATTER-ADD READ AT `n`: the operand's element plus the updates summed over the positions whose index
    (signed, unclamped) is `n`. -/
theorem flatScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (n : Fin N) :
    Ideal.hostScatterAdd (flatScatterDims N R wf) x idx upd (ix1 n)
      = x (ix1 n) + ∑ e ∈ Finset.univ.filter (fun e : Fin R => (idx (ix2 e 0)).toInt = (n.val : Int)), upd (ix1 e) := by
  unfold Ideal.hostScatterAdd
  congr 1
  rw [Finset.sum_filter, sum_idx1, Finset.sum_filter]
  refine Finset.sum_congr rfl fun e _ => ?_
  simp only [flatScatter_lands]

/-! ## Elements gathered from a flat table `[N]` at start indices `[R, 1]` -/

/-- The dimension numbers of `x[idx]` for a flat table `[N]`, start indices `[R, 1]` and a result `[R]`. -/
abbrev flatGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table's element at the position `e` selects (signed, clamped). -/
theorem flatGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (flatGatherDims N R wf) x idx (ix1 e) = x (ix1 (rowOf N hN idx e)) := by
  unfold Host.gather
  congr 1
  funext a
  obtain rfl : a = 0 := Subsingleton.elim _ _
  refine Fin.ext ?_
  show (flatGatherDims N R wf).start (ix1 e) idx 0 + (flatGatherDims N R wf).batchCoord (ix1 e) 0
    + (flatGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N R wf).startIndexMap from List.mem_singleton.mpr rfl)]
  have hsi : (flatGatherDims N R wf).siIdx (ix1 e) ⟨List.idxOf (0 : Fin 1) (flatGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Cert.LibRowIndex
-- ==== Proof.KernelHost.lean ====
/-
  What the kernel's eight input arrays hold when its grid starts, as functions of the program's argument arrays.

  Before the grid the program gathers the query's and the keys' table rows (a position is wrapped, then clamped into
  the table), joins the two tables' rows side by side, pads the fifty keys and the mask to fifty-six with zero, and
  cuts the hidden weights into rows 0..127 and rows 128..383.  Each array is first written as the composition of the
  operations that produce it, and that composition is then read at one index: the query and the keys are the
  specification's `emb`, the mask is the mask bit as a real number, the padding is zero, the weights and biases are
  the argument arrays' entries.
-/
import proofs.«166987_j34565896798471_2_alg».proof.Proof.Gen.KernelIdeal.Frame
import proofs.«166987_j34565896798471_2_alg».proof.Proof.Spec
import proofs.«166987_j34565896798471_2_alg».proof.Proof.LibRowIndex
import proofs.«166987_j34565896798471_2_alg».proof.Proof.LibGatherRows
import Idealize.ShloMosaic.Lib.Pipeline.Value
import Idealize.ShloMosaic.Lib.ValueIdx
import Idealize.ShloMosaic.Lib.KernelVsHost
import Idealize.ShloMosaic.PureOps.Ideal.Laws

noncomputable section

namespace Cert.Din.KHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! The argument arrays. -/
abbrev A0 : IVec S4096x1 32 := m ((c : Thread nD τ).loc main_arg0)
abbrev A1 : IVec S4096x1 32 := m ((c : Thread nD τ).loc main_arg1)
abbrev A2 : IVec S4096x1x50 32 := m ((c : Thread nD τ).loc main_arg2)
abbrev A3 : IVec S4096x1x50 32 := m ((c : Thread nD τ).loc main_arg3)
abbrev A4 : IVec S4096x1x50 1 := m ((c : Thread nD τ).loc main_arg4)
abbrev A5 : FVec Ideal S100000x64 .f32 := m ((c : Thread nD τ).loc main_arg5)
abbrev A6 : FVec Ideal S100000x64 .f32 := m ((c : Thread nD τ).loc main_arg6)
abbrev A7 : FVec Ideal S384x256 .f32 := m ((c : Thread nD τ).loc main_arg7)
abbrev A8 : FVec Ideal S256 .f32 := m ((c : Thread nD τ).loc main_arg8)
abbrev A9 : FVec Ideal S256x1 .f32 := m ((c : Thread nD τ).loc main_arg9)
abbrev A10 : FVec Ideal S1 .f32 := m ((c : Thread nD τ).loc main_arg10)

/-- An array after the operations before the grid is the composition of the operations that wrote it. -/
local macro "host_term" : tactic =>
  `(tactic| (dsimp only [Gen.V, Gen.V0]
             simp only [Gen.hostOps0, Gen.hostOps0_1, Gen.hostOps0_2, Gen.hostOps0_3, Gen.hostOps0_4, List.flatten_cons,
               List.flatten_nil, List.append_nil, List.cons_append, List.nil_append]
             after_results_simp
             rfl))

/-! ## The output bias and the hidden bias: reshapes -/

/-- The output bias as a 1-by-1 array. -/
def val_v46 (x10 : FVec Ideal S1 .f32) : FVec Ideal S1x1 .f32 :=
  fun i => shapeCast S1x1 x10 Facts₀.shapeCasts_S1_S1x1 i

theorem V_v46 : (V m c main_v46 : S1x1.Idx → EReal) = val_v46 (A10 m c) := by host_term

theorem val_v46_apply (x10 : FVec Ideal S1 .f32) : val_v46 x10 (ix2 0 0) = x10 (ix1 0) := by
  unfold val_v46
  refine shapeCast_apply x10 _ (ix2 0 0) (ix1 0) ?_
  rw [Shape.rowMajor_val_one, Shape.rowMajor_val_two]
  rfl

theorem bo_entry : (V m c main_v46 : S1x1.Idx → EReal) (ix2 0 0) = A10 m c (ix1 0) := by
  rw [V_v46, val_v46_apply]

/-- The hidden bias as a 1-by-256 array. -/
def val_v45 (x8 : FVec Ideal S256 .f32) : FVec Ideal S1x256 .f32 :=
  fun i => shapeCast S1x256 x8 Facts₀.shapeCasts_S256_S1x256 i

theorem V_v45 : (V m c main_v45 : S1x256.Idx → EReal) = val_v45 (A8 m c) := by host_term

theorem val_v45_apply (x8 : FVec Ideal S256 .f32) (u : Fin 256) : val_v45 x8 (ix2 0 u) = x8 (ix1 u) := by
  unfold val_v45
  refine shapeCast_apply x8 _ (ix2 0 u) (ix1 u) ?_
  rw [Shape.rowMajor_val_one, Shape.rowMajor_val_two]
  show u.val = 0 * 256 + u.val
  omega

theorem bh_entry (u : Fin 256) : (V m c main_v45 : S1x256.Idx → EReal) (ix2 0 u) = A8 m c (ix1 u) := by
  rw [V_v45, val_v45_apply]

/-! ## The output weights: a change of format -/

def val_v44 (x9 : FVec Ideal S256x1 .f32) : FVec Ideal S256x1 .bf16 :=
  truncf .bf16 x9 Facts₀.bitsLt_bf16_f32

theorem V_v44 : (V m c main_v44 : S256x1.Idx → EReal) = val_v44 (A9 m c) := by host_term

theorem wout_entry (u : Fin 256) : (V m c main_v44 : S256x1.Idx → EReal) (ix2 u 0) = A9 m c (ix2 u 0) := by
  rw [V_v44]; rfl

/-! ## The hidden weights: rows 0..127, and rows 128..383 as two slices joined -/

def val_v38 (x7 : FVec Ideal S384x256 .f32) : FVec Ideal S128x256 .f32 :=
  extractStridedSlice S128x256 ![0, 0] x7 Facts₀.slices_S384x256_S128x256_0_0
def val_v39 (x7 : FVec Ideal S384x256 .f32) : FVec Ideal S128x256 .f32 :=
  extractStridedSlice S128x256 ![128, 0] x7 Facts₀.slices_S384x256_S128x256_128_0
def val_v40 (x7 : FVec Ideal S384x256 .f32) : FVec Ideal S128x256 .f32 :=
  extractStridedSlice S128x256 ![256, 0] x7 Facts₀.slices_S384x256_S128x256_256_0
def val_v41 (x7 : FVec Ideal S384x256 .f32) : FVec Ideal S128x256 .bf16 :=
  truncf .bf16 (val_v38 x7) Facts₀.bitsLt_bf16_f32
def val_v42 (x7 : FVec Ideal S384x256 .f32) : FVec Ideal S256x256 .f32 :=
  concatenate S256x256 0 [⟨S128x256, val_v39 x7⟩, ⟨S128x256, val_v40 x7⟩] Facts₀.concatenates_S128x256_S128x256_S256x256_d0
def val_v43 (x7 : FVec Ideal S384x256 .f32) : FVec Ideal S256x256 .bf16 :=
  truncf .bf16 (val_v42 x7) Facts₀.bitsLt_bf16_f32

theorem V_v41 : (V m c main_v41 : S128x256.Idx → EReal) = val_v41 (A7 m c) := by host_term
theorem V_v43 : (V m c main_v43 : S256x256.Idx → EReal) = val_v43 (A7 m c) := by host_term

theorem val_v38_apply (x7 : FVec Ideal S384x256 .f32) (e : Fin 128) (u : Fin 256) :
    val_v38 x7 (ix2 e u) = x7 (ix2 ⟨e.val, by omega⟩ u) := by
  unfold val_v38
  refine extractStridedSlice_apply _ x7 _ (ix2 e u) (ix2 ⟨e.val, by omega⟩ u) fun a => ?_
  match a with
  | ⟨0, _⟩ => show e.val = 0 + e.val; omega
  | ⟨1, _⟩ => show u.val = 0 + u.val; omega

theorem val_v39_apply (x7 : FVec Ideal S384x256 .f32) (e : Fin 128) (u : Fin 256) :
    val_v39 x7 (ix2 e u) = x7 (ix2 ⟨128 + e.val, by omega⟩ u) := by
  unfold val_v39
  refine extractStridedSlice_apply _ x7 _ (ix2 e u) (ix2 ⟨128 + e.val, by omega⟩ u) fun a => ?_
  match a with
  | ⟨0, _⟩ => show 128 + e.val = 128 + e.val; rfl
  | ⟨1, _⟩ => show u.val = 0 + u.val; omega

theorem val_v40_apply (x7 : FVec Ideal S384x256 .f32) (e : Fin 128) (u : Fin 256) :
    val_v40 x7 (ix2 e u) = x7 (ix2 ⟨256 + e.val, by omega⟩ u) := by
  unfold val_v40
  refine extractStridedSlice_apply _ x7 _ (ix2 e u) (ix2 ⟨256 + e.val, by omega⟩ u) fun a => ?_
  match a with
  | ⟨0, _⟩ => show 256 + e.val = 256 + e.val; rfl
  | ⟨1, _⟩ => show u.val = 0 + u.val; omega

theorem w1_entry (e : Fin 128) (u : Fin 256) :
    (V m c main_v41 : S128x256.Idx → EReal) (ix2 e u) = A7 m c (ix2 ⟨e.val, by omega⟩ u) := by
  rw [V_v41]
  exact val_v38_apply (A7 m c) e u

theorem val_v42_apply (x7 : FVec Ideal S384x256 .f32) (k : Fin 256) (u : Fin 256) :
    val_v42 x7 (ix2 k u) = x7 (ix2 ⟨128 + k.val, by omega⟩ u) := by
  unfold val_v42
  by_cases hk : k.val < 128
  · refine (concatenate_pair_apply_left (0 : Fin 2) (val_v39 x7) (val_v40 x7) _ (ix2 k u) rfl (ix2 ⟨k.val, hk⟩ u) fun b => ?_).trans ?_
    · match b with
      | ⟨0, _⟩ => rfl
      | ⟨1, _⟩ => rfl
    · rw [val_v39_apply]
  · have hk' : k.val - 128 < 128 := by omega
    refine (concatenate_pair_apply_right (0 : Fin 2) (val_v39 x7) (val_v40 x7) _ (ix2 k u) rfl rfl (ix2 ⟨k.val - 128, hk'⟩ u)
      (fun b hb => ?_) ?_).trans ?_
    · match b with
      | ⟨0, _⟩ => exact absurd rfl hb
      | ⟨1, _⟩ => rfl
    · show k.val - 128 + 128 = k.val
      omega
    · rw [val_v40_apply]
      exact congrArg x7 (congrArg (fun r => ix2 r u) (Fin.ext (by show 256 + (k.val - 128) = 128 + k.val; omega)))

theorem w23_entry (k : Fin 256) (u : Fin 256) :
    (V m c main_v43 : S256x256.Idx → EReal) (ix2 k u) = A7 m c (ix2 ⟨128 + k.val, by omega⟩ u) := by
  rw [V_v43]
  exact val_v42_apply (A7 m c) k u

/-! ## The mask: the bits as floats, padded from 50 to 56 keys with zero -/

def val_v34 (x4 : IVec S4096x1x50 1) : IVec S4096x50 1 :=
  fun i => shapeCast S4096x50 x4 Facts₀.shapeCasts_S4096x1x50_S4096x50 i
def val_v35 (x4 : IVec S4096x1x50 1) : FVec Ideal S4096x50 .f32 :=
  uitofp .f32 (val_v34 x4)
/-- The padding value: the integer zero as a float. -/
def val_zero : FVec Ideal S_ .f32 :=
  sitofp .f32 (constantI S_ 32 0#32)
def val_v37 (x4 : IVec S4096x1x50 1) : FVec Ideal S4096x56 .f32 :=
  pad S4096x56 ![0, 0] ![0, 6] ![0, 0] (val_v35 x4) val_zero Facts₀.pads_S4096x50_S4096x56_000_060 Facts₀.h_S_

theorem V_v37 : (V m c main_v37 : S4096x56.Idx → EReal) = val_v37 (A4 m c) := by host_term

theorem val_zero_apply (i : S_.Idx) : val_zero i = 0 := by
  show (((0#32 : BitVec 32).toInt : ℝ) : EReal) = 0
  simp

theorem val_v34_apply (x4 : IVec S4096x1x50 1) (b : Fin 4096) (l : Fin 50) :
    val_v34 x4 (ix2 b l) = x4 (ix3 b 0 l) := by
  unfold val_v34
  refine shapeCast_apply x4 _ (ix2 b l) (ix3 b 0 l) ?_
  rw [Shape.rowMajor_val_three, Shape.rowMajor_val_two]
  show (b.val * 1 + 0) * 50 + l.val = b.val * 50 + l.val
  omega

theorem val_v37_apply (x4 : IVec S4096x1x50 1) (b : Fin 4096) (l : Fin 56) :
    val_v37 x4 (ix2 b l) = if h : l.val < 50 then (((x4 (ix3 b 0 ⟨l.val, h⟩)).toNat : ℝ) : EReal) else 0 := by
  unfold val_v37
  by_cases h : l.val < 50
  · rw [dif_pos h]
    refine (pad_apply_of_inside _ _ _ (val_v35 x4) val_zero _ _ (ix2 b l) (ix2 b ⟨l.val, h⟩) fun a => ?_).trans ?_
    · match a with
      | ⟨0, _⟩ => show b.val = 0 + b.val * (0 + 1); omega
      | ⟨1, _⟩ => show l.val = 0 + l.val * (0 + 1); omega
    · show (((val_v34 x4 (ix2 b ⟨l.val, h⟩)).toNat : ℝ) : EReal) = _
      rw [val_v34_apply]
  · rw [dif_neg h]
    refine (pad_apply_of_not_inside _ _ _ (val_v35 x4) val_zero _ _ (ix2 b l) (1 : Fin 2) ?_).trans (val_zero_apply _)
    intro hin
    have h3 : (l.val - 0) / (0 + 1) < 50 := hin.2.2
    omega

theorem mask_entry (b : Fin 4096) (l : Fin 56) :
    (V m c main_v37 : S4096x56.Idx → EReal) (ix2 b l)
      = if h : l.val < 50 then (((A4 m c (ix3 b 0 ⟨l.val, h⟩)).toNat : ℝ) : EReal) else 0 := by
  rw [V_v37]
  exact val_v37_apply (A4 m c) b l

/-! ## The query: two table rows side by side

A position array `[4096, 1]` is flattened, wrapped (a negative position counts from the end), and put back as the
start indices `[4096, 1]` of a row gather. -/

/-- The wrapped positions of a `[4096, 1]` position array, as the gather's start indices. -/
def val_pos (x : IVec S4096x1 32) : IVec S4096x1 32 :=
  broadcastInDim S4096x1 ![0] Facts₀.bcast_S4096_S4096x1_0
    (select
      (cmpi .slt (fun i => shapeCast S4096 x Facts₀.shapeCasts_S4096x1_S4096 i)
        (broadcastInDim S4096 ![] Facts₀.bcast_S_S4096 (constantI S_ 32 0#32)))
      (addi (fun i => shapeCast S4096 x Facts₀.shapeCasts_S4096x1_S4096 i)
        (broadcastInDim S4096 ![] Facts₀.bcast_S_S4096 (constantI S_ 32 100000#32)))
      (fun i => shapeCast S4096 x Facts₀.shapeCasts_S4096x1_S4096 i))

/-- The rows of a table at a position array. -/
def val_rows (t : FVec Ideal S100000x64 .f32) (x : IVec S4096x1 32) : FVec Ideal S4096x64 .f32 :=
  Host.gather gather_S100000x64_S4096x1_S4096x64_1_0_n_n_0_1_164 t (val_pos x)

def val_v16 (x0 x1 : IVec S4096x1 32) (t5 t6 : FVec Ideal S100000x64 .f32) : FVec Ideal S4096x128 .f32 :=
  concatenate S4096x128 1 [⟨S4096x64, val_rows t5 x0⟩, ⟨S4096x64, val_rows t6 x1⟩]
    Facts₀.concatenates_S4096x64_S4096x64_S4096x128_d1

theorem V_v16 : (V m c main_v16 : S4096x128.Idx → EReal) = val_v16 (A0 m c) (A1 m c) (A5 m c) (A6 m c) := by
  host_term

theorem val_pos_apply (x : IVec S4096x1 32) (b : Fin 4096) : val_pos x (ix2 b 0) = Din.wrap (x (ix2 b 0)) := by
  unfold val_pos
  refine (broadcastInDim_apply _ Facts₀.bcast_S4096_S4096x1_0 _ (ix2 b 0) (ix1 b) (fun a => ?_)).trans ?_
  · match a with
    | ⟨0, _⟩ => show b.val = if (4096 : Nat) = 1 then 0 else b.val; rw [if_neg (by decide)]
  · have hx : (fun i => shapeCast S4096 x Facts₀.shapeCasts_S4096x1_S4096 i) (ix1 b) = x (ix2 b 0) := by
      refine shapeCast_apply x _ (ix1 b) (ix2 b 0) ?_
      rw [Shape.rowMajor_val_one, Shape.rowMajor_val_two]
      show b.val * 1 + 0 = b.val
      omega
    have h0 : broadcastInDim S4096 ![] Facts₀.bcast_S_S4096 (constantI S_ 32 0#32) (ix1 b) = 0#32 :=
      broadcastInDim_apply _ Facts₀.bcast_S_S4096 (constantI S_ 32 0#32) (ix1 b) ix0 (fun a => a.elim0)
    have h1 : broadcastInDim S4096 ![] Facts₀.bcast_S_S4096 (constantI S_ 32 100000#32) (ix1 b) = 100000#32 :=
      broadcastInDim_apply _ Facts₀.bcast_S_S4096 (constantI S_ 32 100000#32) (ix1 b) ix0 (fun a => a.elim0)
    show Scalar.select (IntOp.cmpi .slt ((fun i => shapeCast S4096 x Facts₀.shapeCasts_S4096x1_S4096 i) (ix1 b))
          (broadcastInDim S4096 ![] Facts₀.bcast_S_S4096 (constantI S_ 32 0#32) (ix1 b)))
        (IntOp.addi ((fun i => shapeCast S4096 x Facts₀.shapeCasts_S4096x1_S4096 i) (ix1 b))
          (broadcastInDim S4096 ![] Facts₀.bcast_S_S4096 (constantI S_ 32 100000#32) (ix1 b)))
        ((fun i => shapeCast S4096 x Facts₀.shapeCasts_S4096x1_S4096 i) (ix1 b)) = _
    rw [hx, h0, h1]
    rfl

theorem val_rows_apply (t : FVec Ideal S100000x64 .f32) (x : IVec S4096x1 32) (b : Fin 4096) (k : Fin 64) :
    val_rows t x (ix2 b k) = t (ix2 (Din.rowAt (x (ix2 b 0))) k) := by
  unfold val_rows
  refine (LibRowIndex.rowGather_apply (N := 100000) (R := 4096) (C := 64) (by decide)
    Facts₀.gather_S100000x64_S4096x1_S4096x64_1_0_n_n_0_1_164_wf t (val_pos x) b k).trans ?_
  refine congrArg t (congrArg (fun r => ix2 r k) (Fin.ext ?_))
  show min (val_pos x (ix2 b 0)).toInt.toNat (100000 - 1) = min (Din.wrap (x (ix2 b 0))).toInt.toNat (100000 - 1)
  rw [val_pos_apply]

theorem val_v16_apply (x0 x1 : IVec S4096x1 32) (t5 t6 : FVec Ideal S100000x64 .f32) (b : Fin 4096) (e : Fin 128) :
    val_v16 x0 x1 t5 t6 (ix2 b e) = Din.emb t5 t6 (x0 (ix2 b 0)) (x1 (ix2 b 0)) e := by
  unfold val_v16 Din.emb
  by_cases h : e.val < 64
  · rw [dif_pos h]
    refine (concatenate_pair_apply_left (1 : Fin 2) (val_rows t5 x0) (val_rows t6 x1) _ (ix2 b e) rfl (ix2 b ⟨e.val, h⟩)
      fun a => ?_).trans (val_rows_apply t5 x0 b ⟨e.val, h⟩)
    match a with
    | ⟨0, _⟩ => rfl
    | ⟨1, _⟩ => rfl
  · rw [dif_neg h]
    have h' : e.val - 64 < 64 := by omega
    refine (concatenate_pair_apply_right (1 : Fin 2) (val_rows t5 x0) (val_rows t6 x1) _ (ix2 b e) rfl rfl
      (ix2 b ⟨e.val - 64, h'⟩) (fun a ha => ?_) ?_).trans (val_rows_apply t6 x1 b ⟨e.val - 64, h'⟩)
    · match a with
      | ⟨0, _⟩ => rfl
      | ⟨1, _⟩ => exact absurd rfl ha
    · show e.val - 64 + 64 = e.val
      omega

theorem q_entry (b : Fin 4096) (e : Fin 128) :
    (V m c main_v16 : S4096x128.Idx → EReal) (ix2 b e)
      = Din.emb (A5 m c) (A6 m c) (A0 m c (ix2 b 0)) (A1 m c (ix2 b 0)) e := by
  rw [V_v16]
  exact val_v16_apply (A0 m c) (A1 m c) (A5 m c) (A6 m c) b e

/-! ## The keys: two table rows side by side for each of 50 positions, padded to 56 with zero -/

/-- The wrapped positions of a `[4096, 1, 50]` position array, as the gather's start indices `[4096, 50, 1]`. -/
def val_pos3 (x : IVec S4096x1x50 32) : IVec S4096x50x1 32 :=
  broadcastInDim S4096x50x1 ![0, 1] Facts₀.bcast_S4096x50_S4096x50x1_0_1
    (select
      (cmpi .slt (fun i => shapeCast S4096x50 x Facts₀.shapeCasts_S4096x1x50_S4096x50 i)
        (broadcastInDim S4096x50 ![] Facts₀.bcast_S_S4096x50 (constantI S_ 32 0#32)))
      (addi (fun i => shapeCast S4096x50 x Facts₀.shapeCasts_S4096x1x50_S4096x50 i)
        (broadcastInDim S4096x50 ![] Facts₀.bcast_S_S4096x50 (constantI S_ 32 100000#32)))
      (fun i => shapeCast S4096x50 x Facts₀.shapeCasts_S4096x1x50_S4096x50 i))

/-- The rows of a table at a `[4096, 1, 50]` position array. -/
def val_rows3 (t : FVec Ideal S100000x64 .f32) (x : IVec S4096x1x50 32) : FVec Ideal S4096x50x64 .f32 :=
  Host.gather gather_S100000x64_S4096x50x1_S4096x50x64_2_0_n_n_0_2_164 t (val_pos3 x)

def val_v33 (x2 x3 : IVec S4096x1x50 32) (t5 t6 : FVec Ideal S100000x64 .f32) : FVec Ideal S4096x50x128 .f32 :=
  concatenate S4096x50x128 2 [⟨S4096x50x64, val_rows3 t5 x2⟩, ⟨S4096x50x64, val_rows3 t6 x3⟩]
    Facts₀.concatenates_S4096x50x64_S4096x50x64_S4096x50x128_d2

def val_v36 (x2 x3 : IVec S4096x1x50 32) (t5 t6 : FVec Ideal S100000x64 .f32) : FVec Ideal S4096x56x128 .f32 :=
  pad S4096x56x128 ![0, 0, 0] ![0, 6, 0] ![0, 0, 0] (val_v33 x2 x3 t5 t6) val_zero
    Facts₀.pads_S4096x50x128_S4096x56x128_000_060_000 Facts₀.h_S_

theorem V_v36 : (V m c main_v36 : S4096x56x128.Idx → EReal) = val_v36 (A2 m c) (A3 m c) (A5 m c) (A6 m c) := by
  host_term

theorem val_pos3_apply (x : IVec S4096x1x50 32) (b : Fin 4096) (l : Fin 50) :
    val_pos3 x (ix3 b l 0) = Din.wrap (x (ix3 b 0 l)) := by
  unfold val_pos3
  refine (broadcastInDim_apply _ Facts₀.bcast_S4096x50_S4096x50x1_0_1 _ (ix3 b l 0) (ix2 b l) (fun a => ?_)).trans ?_
  · match a with
    | ⟨0, _⟩ => show b.val = if (4096 : Nat) = 1 then 0 else b.val; rw [if_neg (by decide)]
    | ⟨1, _⟩ => show l.val = if (50 : Nat) = 1 then 0 else l.val; rw [if_neg (by decide)]
  · have hx : (fun i => shapeCast S4096x50 x Facts₀.shapeCasts_S4096x1x50_S4096x50 i) (ix2 b l) = x (ix3 b 0 l) := by
      refine shapeCast_apply x _ (ix2 b l) (ix3 b 0 l) ?_
      rw [Shape.rowMajor_val_three, Shape.rowMajor_val_two]
      show (b.val * 1 + 0) * 50 + l.val = b.val * 50 + l.val
      omega
    have h0 : broadcastInDim S4096x50 ![] Facts₀.bcast_S_S4096x50 (constantI S_ 32 0#32) (ix2 b l) = 0#32 :=
      broadcastInDim_apply _ Facts₀.bcast_S_S4096x50 (constantI S_ 32 0#32) (ix2 b l) ix0 (fun a => a.elim0)
    have h1 : broadcastInDim S4096x50 ![] Facts₀.bcast_S_S4096x50 (constantI S_ 32 100000#32) (ix2 b l) = 100000#32 :=
      broadcastInDim_apply _ Facts₀.bcast_S_S4096x50 (constantI S_ 32 100000#32) (ix2 b l) ix0 (fun a => a.elim0)
    show Scalar.select (IntOp.cmpi .slt ((fun i => shapeCast S4096x50 x Facts₀.shapeCasts_S4096x1x50_S4096x50 i) (ix2 b l))
          (broadcastInDim S4096x50 ![] Facts₀.bcast_S_S4096x50 (constantI S_ 32 0#32) (ix2 b l)))
        (IntOp.addi ((fun i => shapeCast S4096x50 x Facts₀.shapeCasts_S4096x1x50_S4096x50 i) (ix2 b l))
          (broadcastInDim S4096x50 ![] Facts₀.bcast_S_S4096x50 (constantI S_ 32 100000#32) (ix2 b l)))
        ((fun i => shapeCast S4096x50 x Facts₀.shapeCasts_S4096x1x50_S4096x50 i) (ix2 b l)) = _
    rw [hx, h0, h1]
    rfl

theorem val_rows3_apply (t : FVec Ideal S100000x64 .f32) (x : IVec S4096x1x50 32) (b : Fin 4096) (l : Fin 50) (k : Fin 64) :
    val_rows3 t x (ix3 b l k) = t (ix2 (Din.rowAt (x (ix3 b 0 l))) k) := by
  unfold val_rows3
  refine (LibGatherRows.rowGather3_apply (N := 100000) (R := 4096) (L := 50) (C := 64) (by decide)
    Facts₀.gather_S100000x64_S4096x50x1_S4096x50x64_2_0_n_n_0_2_164_wf t (val_pos3 x) b l k).trans ?_
  refine congrArg t (congrArg (fun r => ix2 r k) (Fin.ext ?_))
  show min (val_pos3 x (ix3 b l 0)).toInt.toNat (100000 - 1) = min (Din.wrap (x (ix3 b 0 l))).toInt.toNat (100000 - 1)
  rw [val_pos3_apply]

theorem val_v33_apply (x2 x3 : IVec S4096x1x50 32) (t5 t6 : FVec Ideal S100000x64 .f32) (b : Fin 4096) (l : Fin 50)
    (e : Fin 128) :
    val_v33 x2 x3 t5 t6 (ix3 b l e) = Din.emb t5 t6 (x2 (ix3 b 0 l)) (x3 (ix3 b 0 l)) e := by
  unfold val_v33 Din.emb
  by_cases h : e.val < 64
  · rw [dif_pos h]
    refine (concatenate_pair_apply_left (2 : Fin 3) (val_rows3 t5 x2) (val_rows3 t6 x3) _ (ix3 b l e) rfl (ix3 b l ⟨e.val, h⟩)
      fun a => ?_).trans (val_rows3_apply t5 x2 b l ⟨e.val, h⟩)
    match a with
    | ⟨0, _⟩ => rfl
    | ⟨1, _⟩ => rfl
    | ⟨2, _⟩ => rfl
  · rw [dif_neg h]
    have h' : e.val - 64 < 64 := by omega
    refine (concatenate_pair_apply_right (2 : Fin 3) (val_rows3 t5 x2) (val_rows3 t6 x3) _ (ix3 b l e) rfl rfl
      (ix3 b l ⟨e.val - 64, h'⟩) (fun a ha => ?_) ?_).trans (val_rows3_apply t6 x3 b l ⟨e.val - 64, h'⟩)
    · match a with
      | ⟨0, _⟩ => rfl
      | ⟨1, _⟩ => rfl
      | ⟨2, _⟩ => exact absurd rfl ha
    · show e.val - 64 + 64 = e.val
      omega

theorem val_v36_apply (x2 x3 : IVec S4096x1x50 32) (t5 t6 : FVec Ideal S100000x64 .f32) (b : Fin 4096) (l : Fin 56)
    (e : Fin 128) :
    val_v36 x2 x3 t5 t6 (ix3 b l e)
      = if h : l.val < 50 then Din.emb t5 t6 (x2 (ix3 b 0 ⟨l.val, h⟩)) (x3 (ix3 b 0 ⟨l.val, h⟩)) e else 0 := by
  unfold val_v36
  by_cases h : l.val < 50
  · rw [dif_pos h]
    refine (pad_apply_of_inside _ _ _ (val_v33 x2 x3 t5 t6) val_zero _ _ (ix3 b l e) (ix3 b ⟨l.val, h⟩ e) fun a => ?_).trans
      (val_v33_apply x2 x3 t5 t6 b ⟨l.val, h⟩ e)
    match a with
    | ⟨0, _⟩ => show b.val = 0 + b.val * (0 + 1); omega
    | ⟨1, _⟩ => show l.val = 0 + l.val * (0 + 1); omega
    | ⟨2, _⟩ => show e.val = 0 + e.val * (0 + 1); omega
  · rw [dif_neg h]
    refine (pad_apply_of_not_inside _ _ _ (val_v33 x2 x3 t5 t6) val_zero _ _ (ix3 b l e) (1 : Fin 3) ?_).trans
      (val_zero_apply _)
    intro hin
    have h3 : (l.val - 0) / (0 + 1) < 50 := hin.2.2
    omega

theorem k_entry (b : Fin 4096) (l : Fin 56) (e : Fin 128) :
    (V m c main_v36 : S4096x56x128.Idx → EReal) (ix3 b l e)
      = if h : l.val < 50 then
          Din.emb (A5 m c) (A6 m c) (A2 m c (ix3 b 0 ⟨l.val, h⟩)) (A3 m c (ix3 b 0 ⟨l.val, h⟩)) e
        else 0 := by
  rw [V_v36]
  exact val_v36_apply (A2 m c) (A3 m c) (A5 m c) (A6 m c) b l e

end Cert.Din.KHost
end
-- ==== Proof.KernelBlocks.lean ====
/-
  The kernel's input blocks, read at an index.

  The kernel runs over a grid of 64 points.  At point `t` it sees, of each of its eight input arrays, one block: rows
  `64 t .. 64 t + 63` of the three arrays that carry a batch axis (the queries `[4096, 128]`, the keys
  `[4096, 56, 128]`, the mask `[4096, 56]`), and the whole of each of the five weight arrays.  So an element of a
  block is the array's element at the same coordinates, the row shifted by `64 t` on the batch axis.
-/
import proofs.«166987_j34565896798471_2_alg».proof.Proof.Gen.KernelIdeal.Frame
import Idealize.ShloMosaic.Lib.Pipeline.Value
import Idealize.ShloMosaic.Lib.ValueIdx

noncomputable section

namespace Cert.Din.Blocks

open Cert.KernelIdeal Cert.KernelIdeal.Gen Idealize.ShloMosaic Idealize.ShloMosaic.TcCoe Idealize.SL.Sem
open Idealize.ShloMosaic.ValueIdx

/-- A grid point is below 64. -/
theorem t_lt (t : Fin cfg0.N) : t.val < 64 := Nat.lt_of_lt_of_eq t.isLt Gen.N_0

/-- The windows' block indices over the grid: the three batched arrays move one block per point along the batch axis,
    the five weight arrays stay at block zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The output window's block index: one block per point along the batch axis. -/
theorem idx_out : ∀ t : Fin cfg0.N, win0_8.index t (0 : Fin 2) = t.val ∧ win0_8.index t (1 : Fin 2) = 0 :=
  (by decide +kernel : ∀ t : Fin grid0.N, _)

variable (m : (ℓ : Loc nD τ sig) → Buf (Elt Ideal) ℓ) (c : Dev nD) (t : Fin cfg0.N)

/-- The queries' block at point `t`: rows `64 t ..` of the array. -/
theorem read0 (p : Fin 64) (e : Fin 128) :
    iblk m c 0 t (ix2 p e)
      = (V m c main_v16 : S4096x128.Idx → EReal) (ix2 ⟨t.val * 64 + p.val, by have := t_lt t; have := p.isLt; omega⟩ e) := by
  obtain ⟨e0, e1, f0, f1, f2, g0, g1, h30, h31, h40, h41, h50, h51, h60, h61, h70, h71⟩ := idx_facts t
  unfold iblk
  show V m c main_v16 (((cfg0.win 0).blk t).view.emb (ix2 p e)) = V m c main_v16 (ix2 ⟨t.val * 64 + p.val, _⟩ e)
  refine congrArg _ ?_
  funext a; apply Fin.ext
  match a with
  | ⟨0, _⟩ => show win0_0.index t (0 : Fin 2) * 64 + 1 * p.val = t.val * 64 + p.val; omega
  | ⟨1, _⟩ => show win0_0.index t (1 : Fin 2) * 128 + 1 * e.val = e.val; omega

/-- The keys' block at point `t`: rows `64 t ..` of the array. -/
theorem read1 (p : Fin 64) (l : Fin 56) (e : Fin 128) :
    iblk m c 1 t (ix3 p l e)
      = (V m c main_v36 : S4096x56x128.Idx → EReal) (ix3 ⟨t.val * 64 + p.val, by have := t_lt t; have := p.isLt; omega⟩ l e) := by
  obtain ⟨e0, e1, f0, f1, f2, g0, g1, h30, h31, h40, h41, h50, h51, h60, h61, h70, h71⟩ := idx_facts t
  unfold iblk
  show V m c main_v36 (((cfg0.win 1).blk t).view.emb (ix3 p l e)) = V m c main_v36 (ix3 ⟨t.val * 64 + p.val, _⟩ l e)
  refine congrArg _ ?_
  funext a; apply Fin.ext
  match a with
  | ⟨0, _⟩ => show win0_1.index t (0 : Fin 3) * 64 + 1 * p.val = t.val * 64 + p.val; omega
  | ⟨1, _⟩ => show win0_1.index t (1 : Fin 3) * 56 + 1 * l.val = l.val; omega
  | ⟨2, _⟩ => show win0_1.index t (2 : Fin 3) * 128 + 1 * e.val = e.val; omega

/-- The mask's block at point `t`: rows `64 t ..` of the array. -/
theorem read2 (p : Fin 64) (l : Fin 56) :
    iblk m c 2 t (ix2 p l)
      = (V m c main_v37 : S4096x56.Idx → EReal) (ix2 ⟨t.val * 64 + p.val, by have := t_lt t; have := p.isLt; omega⟩ l) := by
  obtain ⟨e0, e1, f0, f1, f2, g0, g1, h30, h31, h40, h41, h50, h51, h60, h61, h70, h71⟩ := idx_facts t
  unfold iblk
  show V m c main_v37 (((cfg0.win 2).blk t).view.emb (ix2 p l)) = V m c main_v37 (ix2 ⟨t.val * 64 + p.val, _⟩ l)
  refine congrArg _ ?_
  funext a; apply Fin.ext
  match a with
  | ⟨0, _⟩ => show win0_2.index t (0 : Fin 2) * 64 + 1 * p.val = t.val * 64 + p.val; omega
  | ⟨1, _⟩ => show win0_2.index t (1 : Fin 2) * 56 + 1 * l.val = l.val; omega

/-- The first weight array is seen whole at every point. -/
theorem read3 (e : Fin 128) (u : Fin 256) :
    iblk m c 3 t (ix2 e u) = (V m c main_v41 : S128x256.Idx → EReal) (ix2 e u) := by
  obtain ⟨e0, e1, f0, f1, f2, g0, g1, h30, h31, h40, h41, h50, h51, h60, h61, h70, h71⟩ := idx_facts t
  unfold iblk
  show V m c main_v41 (((cfg0.win 3).blk t).view.emb (ix2 e u)) = V m c main_v41 (ix2 e u)
  refine congrArg _ ?_
  funext a; apply Fin.ext
  match a with
  | ⟨0, _⟩ => show win0_3.index t (0 : Fin 2) * 128 + 1 * e.val = e.val; omega
  | ⟨1, _⟩ => show win0_3.index t (1 : Fin 2) * 256 + 1 * u.val = u.val; omega

/-- The second weight array is seen whole at every point. -/
theorem read4 (k : Fin 256) (u : Fin 256) :
    iblk m c 4 t (ix2 k u) = (V m c main_v43 : S256x256.Idx → EReal) (ix2 k u) := by
  obtain ⟨e0, e1, f0, f1, f2, g0, g1, h30, h31, h40, h41, h50, h51, h60, h61, h70, h71⟩ := idx_facts t
  unfold iblk
  show V m c main_v43 (((cfg0.win 4).blk t).view.emb (ix2 k u)) = V m c main_v43 (ix2 k u)
  refine congrArg _ ?_
  funext a; apply Fin.ext
  match a with
  | ⟨0, _⟩ => show win0_4.index t (0 : Fin 2) * 256 + 1 * k.val = k.val; omega
  | ⟨1, _⟩ => show win0_4.index t (1 : Fin 2) * 256 + 1 * u.val = u.val; omega

/-- The output layer's weight column is seen whole at every point. -/
theorem read5 (u : Fin 256) :
    iblk m c 5 t (ix2 u 0) = (V m c main_v44 : S256x1.Idx → EReal) (ix2 u 0) := by
  obtain ⟨e0, e1, f0, f1, f2, g0, g1, h30, h31, h40, h41, h50, h51, h60, h61, h70, h71⟩ := idx_facts t
  unfold iblk
  show V m c main_v44 (((cfg0.win 5).blk t).view.emb (ix2 u 0)) = V m c main_v44 (ix2 u 0)
  refine congrArg _ ?_
  funext a; apply Fin.ext
  match a with
  | ⟨0, _⟩ => show win0_5.index t (0 : Fin 2) * 256 + 1 * u.val = u.val; omega
  | ⟨1, _⟩ => show win0_5.index t (1 : Fin 2) * 1 + 1 * 0 = 0; omega

/-- The hidden layer's bias row is seen whole at every point. -/
theorem read6 (u : Fin 256) :
    iblk m c 6 t (ix2 0 u) = (V m c main_v45 : S1x256.Idx → EReal) (ix2 0 u) := by
  obtain ⟨e0, e1, f0, f1, f2, g0, g1, h30, h31, h40, h41, h50, h51, h60, h61, h70, h71⟩ := idx_facts t
  unfold iblk
  show V m c main_v45 (((cfg0.win 6).blk t).view.emb (ix2 0 u)) = V m c main_v45 (ix2 0 u)
  refine congrArg _ ?_
  funext a; apply Fin.ext
  match a with
  | ⟨0, _⟩ => show win0_6.index t (0 : Fin 2) * 1 + 1 * 0 = 0; omega
  | ⟨1, _⟩ => show win0_6.index t (1 : Fin 2) * 256 + 1 * u.val = u.val; omega

/-- The output layer's bias is seen whole at every point. -/
theorem read7 :
    iblk m c 7 t (ix2 0 0) = (V m c main_v46 : S1x1.Idx → EReal) (ix2 0 0) := by
  obtain ⟨e0, e1, f0, f1, f2, g0, g1, h30, h31, h40, h41, h50, h51, h60, h61, h70, h71⟩ := idx_facts t
  unfold iblk
  show V m c main_v46 (((cfg0.win 7).blk t).view.emb (ix2 0 0)) = V m c main_v46 (ix2 0 0)
  refine congrArg _ ?_
  funext a; apply Fin.ext
  match a with
  | ⟨0, _⟩ => show win0_7.index t (0 : Fin 2) * 1 + 1 * 0 = 0; omega
  | ⟨1, _⟩ => show win0_7.index t (1 : Fin 2) * 1 + 1 * 0 = 0; omega

end Cert.Din.Blocks

end
-- ==== Proof.Row.lean ====
/-
  One batch row of the kernel's arrangement is the specification's row.

  Whatever holds the row's data — the query features, the 56 padded keys, the padded mask, the two weight pieces, the
  biases — if it agrees entry by entry with the argument arrays read as the specification reads them (keys and mask
  zero from position 50 on), then the kernel's sum for the row is the specification's.  A mask bit read as a number is
  0 or 1, which is all the masked choice needs.
-/
import proofs.«166987_j34565896798471_2_alg».proof.Proof.Core

noncomputable section

namespace Cert.Din

open Idealize.ShloMosaic Idealize.ShloMosaic.ValueIdx
open scoped BigOperators

/-- A one-bit word read as a number is 0 or 1. -/
theorem bit_zero_or_one (x : BitVec 1) : (((x.toNat : ℝ) : EReal) = 0) ∨ (((x.toNat : ℝ) : EReal) = 1) := by
  rcases BitVec.eq_zero_or_eq_one x with h | h <;> subst h
  · left; simp
  · right; simp

theorem row_eq (a0 a1 : IVec ⟨2, ![4096, 1]⟩ 32) (a2 a3 : IVec ⟨3, ![4096, 1, 50]⟩ 32) (a4 : IVec ⟨3, ![4096, 1, 50]⟩ 1)
    (a5 a6 : Tbl) (a7 : FVec Ideal ⟨2, ![384, 256]⟩ .f32) (a8 : FVec Ideal ⟨1, ![256]⟩ .f32)
    (a9 : FVec Ideal ⟨2, ![256, 1]⟩ .f32) (a10 : FVec Ideal ⟨1, ![1]⟩ .f32) (b : Fin 4096) (e : Fin 128)
    (qb : Fin 128 → EReal) (kb : Fin 56 → Fin 128 → EReal) (mb : Fin 56 → EReal)
    (w1 : Fin 128 → Fin 256 → EReal) (w23 : Fin 256 → Fin 256 → EReal) (bh wo : Fin 256 → EReal) (bo : EReal)
    (hq : ∀ e', qb e' = emb a5 a6 (a0 (ix2 b 0)) (a1 (ix2 b 0)) e')
    (hk : ∀ (l : Fin 56) (e' : Fin 128), kb l e' =
      if h : l.val < 50 then emb a5 a6 (a2 (ix3 b 0 ⟨l.val, h⟩)) (a3 (ix3 b 0 ⟨l.val, h⟩)) e' else 0)
    (hm : ∀ l : Fin 56, mb l = if h : l.val < 50 then (((a4 (ix3 b 0 ⟨l.val, h⟩)).toNat : ℝ) : EReal) else 0)
    (hw1 : ∀ (e' : Fin 128) (u : Fin 256), w1 e' u = a7 (ix2 ⟨e'.val, by omega⟩ u))
    (hw23 : ∀ (c : Fin 256) (u : Fin 256), w23 c u = a7 (ix2 ⟨128 + c.val, by omega⟩ u))
    (hbh : ∀ u, bh u = a8 (ix1 u)) (hwo : ∀ u, wo u = a9 (ix2 u 0)) (hbo : bo = a10 (ix1 0)) :
    attendK qb bh wo bo kb mb w1 w23 e = G a0 a1 a2 a3 a4 a5 a6 a7 a8 a9 a10 (ix3 b 0 e) := by
  obtain rfl : qb = fun e' => emb a5 a6 (a0 (ix2 b 0)) (a1 (ix2 b 0)) e' := funext hq
  obtain rfl : bh = fun u => a8 (ix1 u) := funext hbh
  obtain rfl : wo = fun u => a9 (ix2 u 0) := funext hwo
  subst hbo
  show _ = attend (fun e' => emb a5 a6 (a0 (ix2 b 0)) (a1 (ix2 b 0)) e')
      (fun l e' => emb a5 a6 (a2 (ix3 b 0 l)) (a3 (ix3 b 0 l)) e')
      (fun l => (((a4 (ix3 b 0 l)).toNat : ℝ) : EReal))
      (fun c u => a7 (ix2 c u)) (fun u => a8 (ix1 u)) (fun u => a9 (ix2 u 0)) (a10 (ix1 0)) e
  refine attendK_eq ?_ ?_ ?_ (fun l => bit_zero_or_one _) hw1 hw23 e
  · intro l e'
    rw [hk, dif_pos (show (⟨l.val, by omega⟩ : Fin 56).val < 50 from l.isLt)]
  · intro l e'
    rw [hk, dif_neg (show ¬ (⟨50 + l.val, by omega⟩ : Fin 56).val < 50 from by simp)]
  · intro l
    rw [hm, dif_pos (show (⟨l.val, by omega⟩ : Fin 56).val < 50 from l.isLt)]

end Cert.Din

end
-- ==== Proof.KernelValue.lean ====
/-
  The array the region leaves.

  Grid point `t` works on batch rows `64 t .. 64 t + 63`: its query, key and mask blocks are those rows of the
  arrays the host prologue prepared, its weight and bias blocks the whole arrays.  The value it writes back at block
  row `p` is therefore the kernel's attention sum for batch row `64 t + p`, which is the specification's; the 64
  blocks tile the 4096 rows, so the whole array holds the specification, row by row.
-/
import proofs.«166987_j34565896798471_2_alg».proof.Proof.Gen.KernelIdeal.Frame
import proofs.«166987_j34565896798471_2_alg».proof.Proof.KernelBody
import proofs.«166987_j34565896798471_2_alg».proof.Proof.KernelHost
import proofs.«166987_j34565896798471_2_alg».proof.Proof.KernelBlocks
import proofs.«166987_j34565896798471_2_alg».proof.Proof.Row
import Idealize.ShloMosaic.Lib.Pipeline.Value
import Idealize.ShloMosaic.Lib.ValueIdx

noncomputable section

namespace Cert.Din.KValue

open Idealize.ShloMosaic Idealize.ShloMosaic.ValueIdx Cert.KernelIdeal Cert.KernelIdeal.Gen Cert.Din.KHost
open Idealize.ShloMosaic.Pipeline (Dat)

variable (m : (ℓ : Loc nD τ sig) → Buf (Elt Ideal) ℓ) (c : Dev nD)

/-- The specification laid out as the region's output array: batch row `b`, feature `e`. -/
def out2 : S4096x128.Idx → EReal := fun i =>
  G (A0 m c) (A1 m c) (A2 m c) (A3 m c) (A4 m c) (A5 m c) (A6 m c) (A7 m c) (A8 m c) (A9 m c) (A10 m c)
    (ix3 (⟨(i 0).val, idx2_lt0 i⟩ : Fin 4096) 0 (⟨(i 1).val, idx2_lt1 i⟩ : Fin 128))

theorem hz2 : (![0, 0] : Fin 2 → Nat) = fun _ => 0 := funext fun a => by fin_cases a <;> rfl
theorem hz3 : (![0, 0, 0] : Fin 3 → Nat) = fun _ => 0 := funext fun a => by fin_cases a <;> rfl

/-- The batch row block row `p` of point `t` is. -/
def rowOfPoint (t : Fin cfg0.N) (p : Fin 64) : Fin 4096 :=
  ⟨t.val * 64 + p.val, by have := Blocks.t_lt t; have := p.isLt; omega⟩

/-- WHAT POINT `t` WRITES BACK, at block row `p` and feature `e`: the specification at batch row `64 t + p`. -/
theorem written (t : Fin cfg0.N) (p : Fin 64) (e : Fin 128) :
    k0_pay1 (k0_pay2 (iblk m c 1 t)) (k0_pay3 (iblk m c 2 t)) (k0_pay4 (iblk m c 7 t))
        (k0_pay5 (iblk m c 0 t) (iblk m c 1 t) (iblk m c 3 t) (iblk m c 4 t) (iblk m c 6 t) (iblk m c 5 t)) (ix2 p e)
      = G (A0 m c) (A1 m c) (A2 m c) (A3 m c) (A4 m c) (A5 m c) (A6 m c) (A7 m c) (A8 m c) (A9 m c) (A10 m c)
          (ix3 (rowOfPoint t p) 0 e) := by
  refine (Body.pay_apply (iblk m c 0 t) (iblk m c 1 t) (iblk m c 2 t) (iblk m c 3 t) (iblk m c 4 t) (iblk m c 5 t)
    (iblk m c 6 t) (iblk m c 7 t) p e).trans ?_
  refine row_eq (A0 m c) (A1 m c) (A2 m c) (A3 m c) (A4 m c) (A5 m c) (A6 m c) (A7 m c) (A8 m c) (A9 m c) (A10 m c)
    (rowOfPoint t p) e _ _ _ _ _ _ _ _ ?_ ?_ ?_ ?_ ?_ ?_ ?_ ?_
  · intro e'; exact (Blocks.read0 m c t p e').trans (q_entry m c (rowOfPoint t p) e')
  · intro l e'; exact (Blocks.read1 m c t p l e').trans (k_entry m c (rowOfPoint t p) l e')
  · intro l; exact (Blocks.read2 m c t p l).trans (mask_entry m c (rowOfPoint t p) l)
  · intro e' u; exact (Blocks.read3 m c t e' u).trans (w1_entry m c e' u)
  · intro k u; exact (Blocks.read4 m c t k u).trans (w23_entry m c k u)
  · intro u; exact (Blocks.read6 m c t u).trans (bh_entry m c u)
  · intro u; exact (Blocks.read5 m c t u).trans (wout_entry m c u)
  · exact (Blocks.read7 m c t).trans (bo_entry m c)

/-- The output window's index map, decided over the grid: point `t` writes block `(t, 0)`. -/
theorem idx_out8 : ∀ t : Fin cfg0.N, win0_8.index t (0 : Fin 2) = t.val ∧ win0_8.index t (1 : Fin 2) = 0 :=
  (by decide +kernel : ∀ t : Fin grid0.N, _)

/-- Where block coordinate `(p, e)` of point `t` sits in the output array. -/
theorem emb_out (t : Fin cfg0.N) (p : Fin 64) (e : Fin 128) :
    (((cfg0.win 8).blk t).view.emb (ix2 p e) : S4096x128.Idx) = ix2 (rowOfPoint t p) e := by
  obtain ⟨e0, e1⟩ := idx_out8 t
  funext a
  apply Fin.ext
  match a with
  | ⟨0, _⟩ => show win0_8.index t (0 : Fin 2) * 64 + 1 * p.val = t.val * 64 + p.val; omega
  | ⟨1, _⟩ => show win0_8.index t (1 : Fin 2) * 128 + 1 * e.val = e.val; omega

/-- WHAT POINT `t` FLUSHES is block `t` of the specification's array. -/
theorem flushed_eq (t : Fin cfg0.N) :
    (dats m 0 c).flushed 8 t = ((cfg0.win 8).blk t).view.read (Elt Ideal) (out2 m c) := by
  show (cfg0.win 8).cut (grid0.coords t) ((dats m 0 c).after 8 t) = _
  rw [after0_8]
  unfold out0_8
  rw [View.canon_unit_zero hz2]
  simp only [View.ld_unit_zero (S := S64x128) hz2, View.ld_unit_zero (S := S64x56x128) hz3,
    View.ld_unit_zero (S := S64x56) hz2, View.ld_unit_zero (S := S128x256) hz2, View.ld_unit_zero (S := S256x256) hz2,
    View.ld_unit_zero (S := S256x1) hz2, View.ld_unit_zero (S := S1x256) hz2, View.ld_unit_zero (S := S1x1) hz2]
  funext j
  obtain ⟨p, e, rfl⟩ : ∃ (p : Fin 64) (e : Fin 128), j = ix2 p e := ⟨j 0, j 1, eq_ix2 j⟩
  show k0_pay1 (k0_pay2 (iblk m c 1 t)) (k0_pay3 (iblk m c 2 t)) (k0_pay4 (iblk m c 7 t))
      (k0_pay5 (iblk m c 0 t) (iblk m c 1 t) (iblk m c 3 t) (iblk m c 4 t) (iblk m c 6 t) (iblk m c 5 t)) (ix2 p e)
    = out2 m c (((cfg0.win 8).blk t).view.emb (ix2 p e))
  rw [emb_out]
  exact written m c t p e

end Cert.Din.KValue

end
-- ==== Proof.KernelTail.lean ====
/-
  The kernel's output array after the run, and the run with its result named.

  The grid's 64 points write the output array `[4096, 128]` in blocks of 64 rows, point `t` writing rows
  `64 t .. 64 t + 63`, so every entry of the array lies in exactly the block of the point `row / 64`.  After the grid
  one reshape turns the array into `[4096, 1, 128]`: entry `(b, 0, e)` of the result is entry `(b, e)` of the array.
  The program's run then ends with the result at that reshape and every argument array unchanged.
-/
import proofs.«166987_j34565896798471_2_alg».proof.Proof.Gen.KernelIdeal.Frame
import Idealize.ShloMosaic.Lib.Pipeline.Value
import Idealize.ShloMosaic.Lib.ValueIdx
import Idealize.ShloMosaic.Lib.StableHlo.Run

noncomputable section

namespace Cert.Din.KTail

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The output window's blocks cover the array -/

/-- Point `t`'s block of the output array is block `(t, 0)`. -/
theorem idx_out : ∀ t : Fin cfg0.N, win0_8.index t (0 : Fin 2) = t.val ∧ win0_8.index t (1 : Fin 2) = 0 :=
  (by decide +kernel : ∀ t : Fin grid0.N, _)

/-- An index of the array is in point `t`'s block iff each coordinate is in the block's range on its axis. -/
theorem mem_blk8 (t : Fin cfg0.N) (i : S4096x128.Idx) :
    i ∈ ((cfg0.win 8).blk t).view.set ↔ ∀ a : Fin 2, win0_8.index t a * S64x128.size a ≤ (i a).val
      ∧ (i a).val < win0_8.index t a * S64x128.size a + S64x128.size a := by
  show i ∈ ((View.whole main_v47).slice (win0_8.rect t)).set ↔ _
  rw [View.set_slice_whole, Rect.mem_set_unit]
  exact Iff.rfl

/-- Every index of the output array is in the block of some point that writes back: the point `row / 64`. -/
theorem cover8 (i : S4096x128.Idx) :
    ∃ t : Fin cfg0.N, (cfg0.win 8).flush t = true ∧ i ∈ ((cfg0.win 8).blk t).view.set := by
  have hN : cfg0.N = 64 := N_0
  have hi0 : (i 0).val < 4096 := idx2_lt0 i
  have hi1 : (i 1).val < 128 := idx2_lt1 i
  have ht : (i 0).val / 64 < cfg0.N := by rw [hN]; omega
  obtain ⟨e0, e1⟩ := idx_out ⟨(i 0).val / 64, ht⟩
  have e0' : win0_8.index ⟨(i 0).val / 64, ht⟩ (0 : Fin 2) = (i 0).val / 64 := e0
  refine ⟨⟨(i 0).val / 64, ht⟩, flush0_8 _, ?_⟩
  rw [mem_blk8]
  intro a
  match a with
  | ⟨0, _⟩ =>
    show win0_8.index ⟨(i 0).val / 64, ht⟩ (0 : Fin 2) * 64 ≤ (i 0).val
      ∧ (i 0).val < win0_8.index ⟨(i 0).val / 64, ht⟩ (0 : Fin 2) * 64 + 64
    rw [e0']
    omega
  | ⟨1, _⟩ =>
    show win0_8.index ⟨(i 0).val / 64, ht⟩ (1 : Fin 2) * 128 ≤ (i 1).val
      ∧ (i 1).val < win0_8.index ⟨(i 0).val / 64, ht⟩ (1 : Fin 2) * 128 + 128
    rw [e1]
    omega

/-! ## The reshape after the grid -/

/-- The result array is the output array reshaped. -/
theorem tail_eq (c : Dev nD) :
    (Pipeline.afterTail₀ cfgs (dats m) 0 (V0 m) [hostOps1] c main_v48 : S4096x1x128.Idx → EReal)
      = fun i => shapeCast S4096x1x128 ((dats m 0 c).arrAt 8 cfg0.N : S4096x128.Idx → EReal)
          Facts₀.shapeCasts_S4096x128_S4096x1x128 i := by
  unfold Pipeline.afterTail₀
  show StableHlo.after hostOps1 _ (Proc.devRef .tc main_v48) = _
  after_results
  rw [Pipeline.withArrays_arr spec0 launch0.win.arr_inj c _ _ 8]
  rfl

/-- A reshape `[4096, 128] → [4096, 1, 128]` read at `(b, 0, e)` is the operand at `(b, e)`. -/
theorem reshape_out_apply (x : S4096x128.Idx → EReal) (b : Fin 4096) (e : Fin 128) :
    shapeCast S4096x1x128 x Facts₀.shapeCasts_S4096x128_S4096x1x128 (ix3 b 0 e) = x (ix2 b e) := by
  refine shapeCast_apply x _ (ix3 b 0 e) (ix2 b e) ?_
  rw [Shape.rowMajor_val_three, Shape.rowMajor_val_two]
  show b.val * 128 + e.val = (b.val * 1 + 0) * 128 + e.val
  omega

/-- The result array at `(b, 0, e)` is the output array at `(b, e)`. -/
theorem tail_apply (c : Dev nD) (b : Fin 4096) (e : Fin 128) :
    (Pipeline.afterTail₀ cfgs (dats m) 0 (V0 m) [hostOps1] c main_v48 : S4096x1x128.Idx → EReal) (ix3 b 0 e)
      = ((dats m 0 c).arrAt 8 cfg0.N : S4096x128.Idx → EReal) (ix2 b e) := by
  rw [tail_eq]
  exact reshape_out_apply _ b e

/-! ## The run, with the result named -/

/-- The program's run: it terminates, the result array is `Gout` (any name of what the reshape after the grid leaves),
    and every argument array ends as launched. -/
theorem run_named (Gout : (c : Dev nD) → Buf (Elt Ideal) ((c.tc : Thread nD τ).loc main_v48))
    (hG : ∀ c, Pipeline.afterTail₀ cfgs (dats m) 0 (V0 m) [hostOps1] c main_v48 = Gout c) :
    θ_run defs (onTc (τ := τ) (main (F := Ideal))) ⟨m, fun _ => 0, ρ⟩ (fun r => ∀ c : Dev nD,
      r.2.mem ((c.tc : Thread nD τ).loc main_v48) = Gout c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v48 (Pipeline.mem_restRefs_of main_v48 (by decide) (by decide))).trans (hG c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.Din.KTail

end
-- ==== Proof.KernelResult.lean ====
/-
  The kernel program's result.

  The 64 blocks the grid points write tile the region's output array, so it ends holding the specification row by row;
  the one host operation after the region relabels `[4096, 128]` as `[4096, 1, 128]`, which keeps each batch row's
  features where they are.  So the idealized kernel program's result buffer ends at the specification of the
  argument arrays.
-/
import proofs.«166987_j34565896798471_2_alg».proof.Proof.KernelValue
import proofs.«166987_j34565896798471_2_alg».proof.Proof.KernelTail

noncomputable section

namespace Cert.Din.KResult

open Idealize.ShloMosaic Idealize.ShloMosaic.ValueIdx Cert.KernelIdeal Cert.KernelIdeal.Gen Cert.Din.KHost
open Idealize.SL.Sem

variable (m : (ℓ : Loc nD τ sig) → Buf (Elt Ideal) ℓ) (ρ : Dev nD → PrngReg)

/-- The region's output array after the run: the specification, batch row by batch row. -/
theorem final (c : Dev nD) : ((dats m 0 c).arrAt 8 cfg0.N : S4096x128.Idx → EReal) = KValue.out2 m c :=
  (dats m 0 c).arrAt_eq_of_cover 8 (KValue.out2 m c) (fun t _ => KValue.flushed_eq m c t) (fun i => KTail.cover8 i)

/-- The program's result buffer after the tail: the specification of the argument arrays. -/
theorem result (c : Dev nD) :
    (Pipeline.afterTail₀ cfgs (dats m) 0 (V0 m) [hostOps1] c main_v48 : S4096x1x128.Idx → EReal)
      = G (A0 m c) (A1 m c) (A2 m c) (A3 m c) (A4 m c) (A5 m c) (A6 m c) (A7 m c) (A8 m c) (A9 m c) (A10 m c) := by
  funext i
  obtain ⟨b, g, e, rfl⟩ : ∃ (b : Fin 4096) (g : Fin 1) (e : Fin 128), i = ix3 b g e := ⟨i 0, i 1, i 2, eq_ix3 i⟩
  obtain rfl : g = 0 := Subsingleton.elim _ _
  refine (KTail.tail_apply m c b e).trans ?_
  refine (congrFun (final m c) (ix2 b e)).trans ?_
  rfl

end Cert.Din.KResult

end
-- ==== Proof.lean ====
/-
  The certificate of an attention layer over gathered embeddings: the tiled kernel against the plain reference.

  Both programs gather a query and fifty keys from two embedding tables, score each key with a two-layer perceptron on
  the features [q, k, q * k], mask the scores and return the score-weighted sum of the keys.  The kernel pads the keys
  to 56, splits the first layer's 384-term contraction into 256 + 128 terms, and chooses between a score and zero where
  the reference multiplies by the mask.  On the extended reals these are the same function of the arguments
  (Proof/Spec.lean states it; Proof/Core.lean joins the two arrangements using only that addition is a commutative
  monoid and that x * 0 = 0, x * 1 = x), so the precondition is never opened.

  The three frames: the two kernel programs' are the generated frame certificates; the reference's is its run with the
  result dropped.  The idealization rewrote nothing, so `preserves` is trivial.  `algebraic`: the kernel program ends
  with its result at the specification (Proof/KernelResult.lean, from the block's stored value in Proof/KernelBody.lean,
  the arrays the host prologue prepares in Proof/KernelHost.lean and the blocks' places in Proof/KernelBlocks.lean),
  and so does the reference (Proof/RefValue.lean).
-/
import proofs.«166987_j34565896798471_2_alg».proof.Defs
import proofs.«166987_j34565896798471_2_alg».proof.Proof.Gen.Kernel
import proofs.«166987_j34565896798471_2_alg».proof.Proof.Gen.Kernel.Skeleton
import proofs.«166987_j34565896798471_2_alg».proof.Proof.Gen.Kernel.Launch
import proofs.«166987_j34565896798471_2_alg».proof.Proof.Gen.Kernel.Points
import proofs.«166987_j34565896798471_2_alg».proof.Proof.Gen.Kernel.Frame
import proofs.«166987_j34565896798471_2_alg».proof.Proof.Gen.KernelIdeal
import proofs.«166987_j34565896798471_2_alg».proof.Proof.Gen.KernelIdeal.Skeleton
import proofs.«166987_j34565896798471_2_alg».proof.Proof.Gen.KernelIdeal.Launch
import proofs.«166987_j34565896798471_2_alg».proof.Proof.Gen.KernelIdeal.Points
import proofs.«166987_j34565896798471_2_alg».proof.Proof.Gen.KernelIdeal.Frame
import proofs.«166987_j34565896798471_2_alg».proof.Proof.Gen.ReferenceIdeal
import proofs.«166987_j34565896798471_2_alg».proof.Proof.Gen.Pre_finite_inputs
import proofs.«166987_j34565896798471_2_alg».proof.Proof.RefRun
import proofs.«166987_j34565896798471_2_alg».proof.Proof.RefValue
import proofs.«166987_j34565896798471_2_alg».proof.Proof.KernelResult
import Idealize.ShloMosaic.Adequacy
import Idealize.ShloMosaic.Init

noncomputable section

namespace Cert.Proof

open Idealize.ShloMosaic Idealize.SL.Sem

namespace Claims

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with their result at the specification of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Din.KTail.run_named m ρ _ (fun c => Cert.Din.KResult.result m c), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v48_eq, Cert.Din.Ref.ref_is_G, h0, h1, h2, h3, h4, h5, h6, h7, h8, h9, h10]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
